-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v79_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v79_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S3x3584x512 : Shape := ⟨3, ![3, 3584, 512]⟩
abbrev S3x512 : Shape := ⟨2, ![3, 512]⟩
abbrev S3x512x512 : Shape := ⟨3, ![3, 512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S3x3584x512 : S_.BroadcastsInDim S3x3584x512 (![] : Fin 0 → Fin S3x3584x512.rank)
  reducesTo_S3x3584x512_S_d0_1_2 : S3x3584x512.ReducesTo [0, 1, 2] S_
  bcast_S_S3x512 : S_.BroadcastsInDim S3x512 (![] : Fin 0 → Fin S3x512.rank)
  reducesTo_S3x512_S_d0_1 : S3x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_

variable [Facts]

def fn_part1 {F : FTy → Type} [FloatOps F] (main_arg4 : FVec F S3x512x512 .f32) (main_arg5 : FVec F S3x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  main_v28

def fn {F : FTy → Type} [FloatOps F] (main_arg0 : FVec F S10000x512 .f32) (main_arg1 : FVec F S160000 .f32) (main_arg2 : FVec F S3x3584x512 .f32) (main_arg3 : FVec F S3x512 .f32) (main_arg4 : FVec F S3x512x512 .f32) (main_arg5 : FVec F S3x512 .f32) (main_arg6 : IVec S160000 32) (main_arg7 : IVec S160000 32) (main_arg8 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S3x3584x512 .f32 := Host.absf main_arg2
  let main_cst_2 : FVec F S_ .f32 := constant S_ .f32 0x7F800000#32
  let main_v10 : FVec F S3x3584x512 .f32 := broadcastInDim S3x3584x512 ![] bcast_S_S3x3584x512 main_cst_2
  let main_v11 : IVec S3x3584x512 1 := cmpf .olt main_v9 main_v10
  let main_c_3 : IVec S_ 1 := constantI S_ 1 1#1
  let main_v12 : IVec S_ 1 := (fun x v => Host.reduce IntOp.andi x v reducesTo_S3x3584x512_S_d0_1_2 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_v13 main_v16
-- ==== Kernel.lean ====
abbrev S10000x512 : Shape := ⟨2, ![10000, 512]⟩
abbrev S160000 : Shape := ⟨1, ![160000]⟩
abbrev S3x3584x512 : Shape := ⟨3, ![3, 3584, 512]⟩
abbrev S3x512 : Shape := ⟨2, ![3, 512]⟩
abbrev S3x512x512 : Shape := ⟨3, ![3, 512, 512]⟩
abbrev S_ : Shape := ⟨0, ![]⟩
abbrev S160000x1 : Shape := ⟨2, ![160000, 1]⟩
abbrev S160000x512 : Shape := ⟨2, ![160000, 512]⟩
abbrev S70000x512 : Shape := ⟨2, ![70000, 512]⟩
abbrev S10000x3584 : Shape := ⟨2, ![10000, 3584]⟩
abbrev S1x512 : Shape := ⟨2, ![1, 512]⟩
abbrev S512 : Shape := ⟨1, ![512]⟩
abbrev S1x3584x512 : Shape := ⟨3, ![1, 3584, 512]⟩
abbrev S3584x512 : Shape := ⟨2, ![3584, 512]⟩
abbrev S1x512x512 : Shape := ⟨3, ![1, 512, 512]⟩
abbrev S512x512 : Shape := ⟨2, ![512, 512]⟩
abbrev S1000x3584 : Shape := ⟨2, ![1000, 3584]⟩
abbrev S1000x512 : Shape := ⟨2, ![1000, 512]⟩
abbrev S80x512 : Shape := ⟨2, ![80, 512]⟩
abbrev S8x512 : Shape := ⟨2, ![8, 512]⟩

abbrev nBuf : Space → Nat
  | .hbm => 105
  | .vmem => 29
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S3x3584x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S3x3584x512, .bf16⟩
  | .hbm, ⟨10, _⟩ => ⟨S3x512x512, .bf16⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .f32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x512, .f32⟩
  | .hbm, ⟨25, _⟩ => ⟨S160000x512, .f32⟩
  | .hbm, ⟨26, _⟩ => ⟨S160000x512, .f32⟩
  | .hbm, ⟨27, _⟩ => ⟨S_, .f32⟩
  | .hbm, ⟨28, _⟩ => ⟨S70000x512, .f32⟩
  | .hbm, ⟨29, _⟩ => ⟨S160000x1, .i32⟩
  | .hbm, ⟨30, _⟩ => ⟨S70000x512, .f32⟩
  | .hbm, ⟨31, _⟩ => ⟨S10000x3584, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S512, .f32⟩
  | .hbm, ⟨37, _⟩ => ⟨S1x3584x512, .bf16⟩
  | .hbm, ⟨38, _⟩ => ⟨S3584x512, .bf16⟩
  | .hbm, ⟨39, _⟩ => ⟨S1x512x512, .bf16⟩
  | .hbm, ⟨40, _⟩ => ⟨S512x512, .bf16⟩
  | .hbm, ⟨41, _⟩ => ⟨S1x512, .f32⟩
  | .hbm, ⟨42, _⟩ => ⟨S10000x512, .f32⟩
  | .hbm, ⟨43, _⟩ => ⟨S160000x1, .f32⟩
  | .hbm, ⟨44, _⟩ => ⟨S_, .i32⟩
  | .hbm, ⟨45, _⟩ => ⟨S160000, .i32⟩
  | .hbm, ⟨46, _⟩ => ⟨S160000, .i1⟩
  | .hbm, ⟨47, _⟩ => ⟨S_, .i32⟩
  | .hbm, ⟨48, _⟩ => ⟨S160000, .i32⟩
  | .hbm, ⟨49, _⟩ => ⟨S160000, .i32⟩
  | .hbm, ⟨50, _⟩ => ⟨S160000, .i32⟩
  | .hbm, ⟨51, _⟩ => ⟨S160000x1, .i32⟩
  | .hbm, ⟨52, _⟩ => ⟨S160000x512, .f32⟩
  | .hbm, ⟨53, _⟩ => ⟨S160000x512, .f32⟩
  | .hbm, ⟨54, _⟩ => ⟨S160000x512, .f32⟩
  | .hbm, ⟨55, _⟩ => ⟨S_, .f32⟩
  | .hbm, ⟨56, _⟩ => ⟨S70000x512, .f32⟩
  | .hbm, ⟨57, _⟩ => ⟨S160000x1, .i32⟩
  | .hbm, ⟨58, _⟩ => ⟨S70000x512, .f32⟩
  | .hbm, ⟨59, _⟩ => ⟨S10000x3584, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S512, .f32⟩
  | .hbm, ⟨64, _⟩ => ⟨S512, .f32⟩
  | .hbm, ⟨65, _⟩ => ⟨S1x3584x512, .bf16⟩
  | .hbm, ⟨66, _⟩ => ⟨S3584x512, .bf16⟩
  | .hbm, ⟨67, _⟩ => ⟨S1x512x512, .bf16⟩
  | .hbm, ⟨68, _⟩ => ⟨S512x512, .bf16⟩
  | .hbm, ⟨69, _⟩ => ⟨S1x512, .f32⟩
  | .hbm, ⟨70, _⟩ => ⟨S10000x512, .f32⟩
  | .hbm, ⟨71, _⟩ => ⟨S160000x1, .f32⟩
  | .hbm, ⟨72, _⟩ => ⟨S_, .i32⟩
  | .hbm, ⟨73, _⟩ => ⟨S160000, .i32⟩
  | .hbm, ⟨74, _⟩ => ⟨S160000, .i1⟩
  | .hbm, ⟨75, _⟩ => ⟨S_, .i32⟩
  | .hbm, ⟨76, _⟩ => ⟨S160000, .i32⟩
  | .hbm, ⟨77, _⟩ => ⟨S160000, .i32⟩
  | .hbm, ⟨78, _⟩ => ⟨S160000, .i32⟩
  | .hbm, ⟨79, _⟩ => ⟨S160000x1, .i32⟩
  | .hbm, ⟨80, _⟩ => ⟨S160000x512, .f32⟩
  | .hbm, ⟨81, _⟩ => ⟨S160000x512, .f32⟩
  | .hbm, ⟨82, _⟩ => ⟨S160000x512, .f32⟩
  | .hbm, ⟨83, _⟩ => ⟨S_, .f32⟩
  | .hbm, ⟨84, _⟩ => ⟨S70000x512, .f32⟩
  | .hbm, ⟨85, _⟩ => ⟨S160000x1, .i32⟩
  | .hbm, ⟨86, _⟩ => ⟨S70000x512, .f32⟩
  | .hbm, ⟨87, _⟩ => ⟨S10000x3584, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S512, .f32⟩
  | .hbm, ⟨92, _⟩ => ⟨S512, .f32⟩
  | .hbm, ⟨93, _⟩ => ⟨S1x3584x512, .bf16⟩
  | .hbm, ⟨94, _⟩ => ⟨S3584x512, .bf16⟩
  | .hbm, ⟨95, _⟩ => ⟨S1x512x512, .bf16⟩
  | .hbm, ⟨96, _⟩ => ⟨S512x512, .bf16⟩
  | .hbm, ⟨97, _⟩ => ⟨S1x512, .f32⟩
  | .hbm, ⟨98, _⟩ => ⟨S10000x512, .f32⟩
  | .hbm, ⟨99, _⟩ => ⟨S80x512, .f32⟩
  | .hbm, ⟨100, _⟩ => ⟨S_, .f32⟩
  | .hbm, ⟨101, _⟩ => ⟨S512, .f32⟩
  | .hbm, ⟨102, _⟩ => ⟨S_, .f32⟩
  | .hbm, ⟨103, _⟩ => ⟨S512, .f32⟩
  | .hbm, ⟨104, _⟩ => ⟨S512, .f32⟩
  | .local _ .vmem, ⟨0, _⟩ => ⟨S1000x3584, .f32⟩
  | .local _ .vmem, ⟨1, _⟩ => ⟨S1000x3584, .f32⟩
  | .local _ .vmem, ⟨2, _⟩ => ⟨S3584x512, .bf16⟩
  | .local _ .vmem, ⟨3, _⟩ => ⟨S1000x512, .f32⟩
  | .local _ .vmem, ⟨4, _⟩ => ⟨S1000x512, .f32⟩
  | .local _ .vmem, ⟨5, _⟩ => ⟨S512x512, .bf16⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x3584, .f32⟩
  | .local _ .vmem, ⟨10, _⟩ => ⟨S1000x3584, .f32⟩
  | .local _ .vmem, ⟨11, _⟩ => ⟨S3584x512, .bf16⟩
  | .local _ .vmem, ⟨12, _⟩ => ⟨S1000x512, .f32⟩
  | .local _ .vmem, ⟨13, _⟩ => ⟨S1000x512, .f32⟩
  | .local _ .vmem, ⟨14, _⟩ => ⟨S512x512, .bf16⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x3584, .f32⟩
  | .local _ .vmem, ⟨19, _⟩ => ⟨S1000x3584, .f32⟩
  | .local _ .vmem, ⟨20, _⟩ => ⟨S3584x512, .bf16⟩
  | .local _ .vmem, ⟨21, _⟩ => ⟨S1000x512, .f32⟩
  | .local _ .vmem, ⟨22, _⟩ => ⟨S1000x512, .f32⟩
  | .local _ .vmem, ⟨23, _⟩ => ⟨S512x512, .bf16⟩
  | .local _ .vmem, ⟨24, _⟩ => ⟨S1x512, .f32⟩
  | .local _ .vmem, ⟨25, _⟩ => ⟨S1000x512, .f32⟩
  | .local _ .vmem, ⟨26, _⟩ => ⟨S1000x512, .f32⟩
  | .local _ .vmem, ⟨27, _⟩ => ⟨S8x512, .f32⟩
  | .local _ .vmem, ⟨28, _⟩ => ⟨S8x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_5 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79_0 : Ref sig .tc := ⟨.hbm, 98, rfl⟩
abbrev main_v79_1 : Ref sig .tc := ⟨.hbm, 99, rfl⟩
abbrev main_cst_8 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3584x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x3584 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3584x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S70000x512 : S_.BroadcastsInDim S70000x512 (![] : Fin 0 → Fin S70000x512.rank)
  shapeCasts_S70000x512_S10000x3584 : S70000x512.ShapeCasts S10000x3584
  slices_S3x512_S1x512_0_0 : S3x512.Slices ![0, 0] S1x512
  shapeCasts_S1x512_S512 : S1x512.ShapeCasts S512
  slices_S3x3584x512_S1x3584x512_0_0_0 : S3x3584x512.Slices ![0, 0, 0] S1x3584x512
  shapeCasts_S1x3584x512_S3584x512 : S1x3584x512.ShapeCasts S3584x512
  slices_S3x512x512_S1x512x512_0_0_0 : S3x512x512.Slices ![0, 0, 0] S1x512x512
  shapeCasts_S1x512x512_S512x512 : S1x512x512.ShapeCasts S512x512
  shapeCasts_S512_S1x512 : S512.ShapeCasts S1x512
  inb_S1000x3584_S1000x3584_0_0 : ∀ a, (![0, 0] : Fin 2 → Nat) a + S1000x3584.size a ≤ S1000x3584.size a
  h_S1000x3584 : 0 < S1000x3584.numel
  shapeCasts_S1000x3584_S1000x3584 : S1000x3584.ShapeCasts S1000x3584
  inb_S1000x512_S1000x512_0_0 : ∀ a, (![0, 0] : Fin 2 → Nat) a + S1000x512.size a ≤ S1000x512.size a
  h_S1000x512 : 0 < S1000x512.numel
  inb_S3584x512_S3584x512_0_0 : ∀ a, (![0, 0] : Fin 2 → Nat) a + S3584x512.size a ≤ S3584x512.size a
  h_S3584x512 : 0 < S3584x512.numel
  shapeCasts_S3584x512_S3584x512 : S3584x512.ShapeCasts S3584x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S3x512_S1x512_1_0 : S3x512.Slices ![1, 0] S1x512
  slices_S3x3584x512_S1x3584x512_1_0_0 : S3x3584x512.Slices ![1, 0, 0] S1x3584x512
  slices_S3x512x512_S1x512x512_1_0_0 : S3x512x512.Slices ![1, 0, 0] S1x512x512
  shapeCasts_S1000x512_S1000x512 : S1000x512.ShapeCasts S1000x512
  slices_S3x512_S1x512_2_0 : S3x512.Slices ![2, 0] S1x512
  slices_S3x3584x512_S1x3584x512_2_0_0 : S3x3584x512.Slices ![2, 0, 0] S1x3584x512
  slices_S3x512x512_S1x512x512_2_0_0 : S3x512x512.Slices ![2, 0, 0] S1x512x512
  reduces_S1000x512_S512 : S1000x512.Reduces [0] S512
  broadcasts_S1x512_S8x512 : S1x512.Broadcasts S8x512
  inb_S8x512_S8x512_0_0 : ∀ a, (![0, 0] : Fin 2 → Nat) a + S8x512.size a ≤ S8x512.size a
  h_S8x512 : 0 < S8x512.numel
  reducesTo_S80x512_S512_d0 : S80x512.ReducesTo [0] S512
  h_S_ : 0 < S_.numel
  bcast_S_S512 : S_.BroadcastsInDim S512 (![] : Fin 0 → Fin S512.rank)
  gather_S10000x512_S160000x1_S160000x512_1_0_n_n_0_1_1512_wf : GatherDims.WF S10000x512 S160000x1 S160000x512 [1] [0] [] [0] [] 1 ![1, 512]
  scatter_S70000x512_S160000x1_S160000x512_1_0_0_1_wf : ScatterDims.WF S70000x512 S160000x1 S160000x512 [1] [0] [0] 1
  dot_S1000x3584_S3584x512_S1000x512_1_0_0_1_n_n_wf : DotDims.WF S1000x3584 S3584x512 S1000x512 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3584.size a ≤ S10000x3584.size a
  hwx0_0 : ∀ i : grid0.Coords, EltTy.bits .f32 = 32 ∨ (Rect.block (s := S10000x3584) S1000x3584.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3584x512.size a ≤ S3584x512.size a
  hwx0_1 : ∀ i : grid0.Coords, EltTy.bits .bf16 = 32 ∨ (Rect.block (s := S3584x512) S3584x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3584.size a ≤ S10000x3584.size a
  hwx1_0 : ∀ i : grid1.Coords, EltTy.bits .f32 = 32 ∨ (Rect.block (s := S10000x3584) S1000x3584.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3584x512.size a ≤ S3584x512.size a
  hwx1_1 : ∀ i : grid1.Coords, EltTy.bits .bf16 = 32 ∨ (Rect.block (s := S3584x512) S3584x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .f32 = 32 ∨ (Rect.block (s := S10000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S10000x512.size a
  hwx1_5 : ∀ i : grid1.Coords, EltTy.bits .f32 = 32 ∨ (Rect.block (s := S10000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x3584.size a ≤ S10000x3584.size a
  hwx2_0 : ∀ i : grid2.Coords, EltTy.bits .f32 = 32 ∨ (Rect.block (s := S10000x3584) S1000x3584.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3584x512.size a ≤ S3584x512.size a
  hwx2_1 : ∀ i : grid2.Coords, EltTy.bits .bf16 = 32 ∨ (Rect.block (s := S3584x512) S3584x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S10000x512.size a
  hwx2_2 : ∀ i : grid2.Coords, EltTy.bits .f32 = 32 ∨ (Rect.block (s := S10000x512) S1000x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S10000x512.size a
  hwx2_5 : ∀ i : grid2.Coords, EltTy.bits .f32 = 32 ∨ (Rect.block (s := S10000x512) S1000x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x512.size a ≤ S80x512.size a
  hwx2_6 : ∀ i : grid2.Coords, EltTy.bits .f32 = 32 ∨ (Rect.block (s := S80x512) S8x512.size (cc2_transform_6 i) (hinb2_6 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S70000x512_S160000x1_S160000x512_1_0_0_1 : ScatterDims S70000x512 S160000x1 S160000x512 where
  updateWindowDims := [1]
  insertedWindowDims := [0]
  scatterDimsToOperandDims := [0]
  indexVectorDim := 1
  wf := scatter_S70000x512_S160000x1_S160000x512_1_0_0_1_wf
def dot_S1000x3584_S3584x512_S1000x512_1_0_0_1_n_n : DotDims S1000x3584 S3584x512 S1000x512 where
  lhsContracting := [1]
  rhsContracting := [0]
  lhsNonContracting := [0]
  rhsNonContracting := [1]
  lhsBatch := []
  rhsBatch := []
  wf := dot_S1000x3584_S3584x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v18) S1000x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S3584x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S1000x3584.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S3584x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S1000x3584.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S3584x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v77) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v79_0) S1000x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v79_1) S8x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x512 : Shape := ⟨2, ![10000, 512]⟩
abbrev S160000 : Shape := ⟨1, ![160000]⟩
abbrev S3x3584x512 : Shape := ⟨3, ![3, 3584, 512]⟩
abbrev S3x512 : Shape := ⟨2, ![3, 512]⟩
abbrev S3x512x512 : Shape := ⟨3, ![3, 512, 512]⟩
abbrev S_ : Shape := ⟨0, ![]⟩
abbrev S160000x1 : Shape := ⟨2, ![160000, 1]⟩
abbrev S160000x512 : Shape := ⟨2, ![160000, 512]⟩
abbrev S70000x512 : Shape := ⟨2, ![70000, 512]⟩
abbrev S10000x3584 : Shape := ⟨2, ![10000, 3584]⟩
abbrev S1x3584x512 : Shape := ⟨3, ![1, 3584, 512]⟩
abbrev S3584x512 : Shape := ⟨2, ![3584, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩

abbrev nBuf : Space → Nat
  | .hbm => 126
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S3x3584x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S160000x512, .f32⟩
  | .hbm, ⟨23, _⟩ => ⟨S160000x512, .f32⟩
  | .hbm, ⟨24, _⟩ => ⟨S160000x512, .f32⟩
  | .hbm, ⟨25, _⟩ => ⟨S_, .f32⟩
  | .hbm, ⟨26, _⟩ => ⟨S70000x512, .f32⟩
  | .hbm, ⟨27, _⟩ => ⟨S160000x1, .i32⟩
  | .hbm, ⟨28, _⟩ => ⟨S70000x512, .f32⟩
  | .hbm, ⟨29, _⟩ => ⟨S10000x3584, .f32⟩
  | .hbm, ⟨30, _⟩ => ⟨S1x3584x512, .f32⟩
  | .hbm, ⟨31, _⟩ => ⟨S3584x512, .f32⟩
  | .hbm, ⟨32, _⟩ => ⟨S10000x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S10000x512, .f32⟩
  | .hbm, ⟨37, _⟩ => ⟨S10000x512, .f32⟩
  | .hbm, ⟨38, _⟩ => ⟨S1x512x512, .f32⟩
  | .hbm, ⟨39, _⟩ => ⟨S512x512, .f32⟩
  | .hbm, ⟨40, _⟩ => ⟨S10000x512, .f32⟩
  | .hbm, ⟨41, _⟩ => ⟨S10000x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S10000x512, .f32⟩
  | .hbm, ⟨46, _⟩ => ⟨S10000x512, .f32⟩
  | .hbm, ⟨47, _⟩ => ⟨S_, .f32⟩
  | .hbm, ⟨48, _⟩ => ⟨S10000x512, .f32⟩
  | .hbm, ⟨49, _⟩ => ⟨S10000x512, .f32⟩
  | .hbm, ⟨50, _⟩ => ⟨S160000x1, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000x512, .f32⟩
  | .hbm, ⟨60, _⟩ => ⟨S160000x512, .f32⟩
  | .hbm, ⟨61, _⟩ => ⟨S160000x512, .f32⟩
  | .hbm, ⟨62, _⟩ => ⟨S_, .f32⟩
  | .hbm, ⟨63, _⟩ => ⟨S70000x512, .f32⟩
  | .hbm, ⟨64, _⟩ => ⟨S160000x1, .i32⟩
  | .hbm, ⟨65, _⟩ => ⟨S70000x512, .f32⟩
  | .hbm, ⟨66, _⟩ => ⟨S10000x3584, .f32⟩
  | .hbm, ⟨67, _⟩ => ⟨S1x3584x512, .f32⟩
  | .hbm, ⟨68, _⟩ => ⟨S3584x512, .f32⟩
  | .hbm, ⟨69, _⟩ => ⟨S10000x512, .f32⟩
  | .hbm, ⟨70, _⟩ => ⟨S1x512, .f32⟩
  | .hbm, ⟨71, _⟩ => ⟨S512, .f32⟩
  | .hbm, ⟨72, _⟩ => ⟨S1x512, .f32⟩
  | .hbm, ⟨73, _⟩ => ⟨S10000x512, .f32⟩
  | .hbm, ⟨74, _⟩ => ⟨S10000x512, .f32⟩
  | .hbm, ⟨75, _⟩ => ⟨S1x512x512, .f32⟩
  | .hbm, ⟨76, _⟩ => ⟨S512x512, .f32⟩
  | .hbm, ⟨77, _⟩ => ⟨S10000x512, .f32⟩
  | .hbm, ⟨78, _⟩ => ⟨S10000x512, .f32⟩
  | .hbm, ⟨79, _⟩ => ⟨S1x512, .f32⟩
  | .hbm, ⟨80, _⟩ => ⟨S512, .f32⟩
  | .hbm, ⟨81, _⟩ => ⟨S1x512, .f32⟩
  | .hbm, ⟨82, _⟩ => ⟨S10000x512, .f32⟩
  | .hbm, ⟨83, _⟩ => ⟨S10000x512, .f32⟩
  | .hbm, ⟨84, _⟩ => ⟨S_, .f32⟩
  | .hbm, ⟨85, _⟩ => ⟨S10000x512, .f32⟩
  | .hbm, ⟨86, _⟩ => ⟨S10000x512, .f32⟩
  | .hbm, ⟨87, _⟩ => ⟨S160000x1, .f32⟩
  | .hbm, ⟨88, _⟩ => ⟨S_, .i32⟩
  | .hbm, ⟨89, _⟩ => ⟨S160000, .i32⟩
  | .hbm, ⟨90, _⟩ => ⟨S160000, .i1⟩
  | .hbm, ⟨91, _⟩ => ⟨S_, .i32⟩
  | .hbm, ⟨92, _⟩ => ⟨S160000, .i32⟩
  | .hbm, ⟨93, _⟩ => ⟨S160000, .i32⟩
  | .hbm, ⟨94, _⟩ => ⟨S160000, .i32⟩
  | .hbm, ⟨95, _⟩ => ⟨S160000x1, .i32⟩
  | .hbm, ⟨96, _⟩ => ⟨S160000x512, .f32⟩
  | .hbm, ⟨97, _⟩ => ⟨S160000x512, .f32⟩
  | .hbm, ⟨98, _⟩ => ⟨S160000x512, .f32⟩
  | .hbm, ⟨99, _⟩ => ⟨S_, .f32⟩
  | .hbm, ⟨100, _⟩ => ⟨S70000x512, .f32⟩
  | .hbm, ⟨101, _⟩ => ⟨S160000x1, .i32⟩
  | .hbm, ⟨102, _⟩ => ⟨S70000x512, .f32⟩
  | .hbm, ⟨103, _⟩ => ⟨S10000x3584, .f32⟩
  | .hbm, ⟨104, _⟩ => ⟨S1x3584x512, .f32⟩
  | .hbm, ⟨105, _⟩ => ⟨S3584x512, .f32⟩
  | .hbm, ⟨106, _⟩ => ⟨S10000x512, .f32⟩
  | .hbm, ⟨107, _⟩ => ⟨S1x512, .f32⟩
  | .hbm, ⟨108, _⟩ => ⟨S512, .f32⟩
  | .hbm, ⟨109, _⟩ => ⟨S1x512, .f32⟩
  | .hbm, ⟨110, _⟩ => ⟨S10000x512, .f32⟩
  | .hbm, ⟨111, _⟩ => ⟨S10000x512, .f32⟩
  | .hbm, ⟨112, _⟩ => ⟨S1x512x512, .f32⟩
  | .hbm, ⟨113, _⟩ => ⟨S512x512, .f32⟩
  | .hbm, ⟨114, _⟩ => ⟨S10000x512, .f32⟩
  | .hbm, ⟨115, _⟩ => ⟨S10000x512, .f32⟩
  | .hbm, ⟨116, _⟩ => ⟨S1x512, .f32⟩
  | .hbm, ⟨117, _⟩ => ⟨S512, .f32⟩
  | .hbm, ⟨118, _⟩ => ⟨S1x512, .f32⟩
  | .hbm, ⟨119, _⟩ => ⟨S10000x512, .f32⟩
  | .hbm, ⟨120, _⟩ => ⟨S10000x512, .f32⟩
  | .hbm, ⟨121, _⟩ => ⟨S_, .f32⟩
  | .hbm, ⟨122, _⟩ => ⟨S10000x512, .f32⟩
  | .hbm, ⟨123, _⟩ => ⟨S10000x512, .f32⟩
  | .hbm, ⟨124, _⟩ => ⟨S_, .f32⟩
  | .hbm, ⟨125, _⟩ => ⟨S512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_c_2 : Ref sig .tc := ⟨.hbm, 51, rfl⟩
abbrev main_v36 : Ref sig .tc := ⟨.hbm, 52, rfl⟩
abbrev main_v37 : Ref sig .tc := ⟨.hbm, 53, rfl⟩
abbrev main_c_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_call1_cst : Ref sig .tc := ⟨.hbm, 84, rfl⟩
abbrev main_call1_v0 : Ref sig .tc := ⟨.hbm, 85, rfl⟩
abbrev main_v66 : Ref sig .tc := ⟨.hbm, 86, rfl⟩
abbrev main_v67 : Ref sig .tc := ⟨.hbm, 87, rfl⟩
abbrev main_c_5 : Ref sig .tc := ⟨.hbm, 88, rfl⟩
abbrev main_v68 : Ref sig .tc := ⟨.hbm, 89, rfl⟩
abbrev main_v69 : Ref sig .tc := ⟨.hbm, 90, rfl⟩
abbrev main_c_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_7 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_call2_cst : Ref sig .tc := ⟨.hbm, 121, rfl⟩
abbrev main_call2_v0 : Ref sig .tc := ⟨.hbm, 122, rfl⟩
abbrev main_v98 : Ref sig .tc := ⟨.hbm, 123, rfl⟩
abbrev main_cst_8 : Ref sig .tc := ⟨.hbm, 124, rfl⟩
abbrev main_v99 : Ref sig .tc := ⟨.hbm, 125, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S70000x512 : S_.BroadcastsInDim S70000x512 (![] : Fin 0 → Fin S70000x512.rank)
  shapeCasts_S70000x512_S10000x3584 : S70000x512.ShapeCasts S10000x3584
  slices_S3x3584x512_S1x3584x512_0_0_0 : S3x3584x512.Slices ![0, 0, 0] S1x3584x512
  shapeCasts_S1x3584x512_S3584x512 : S1x3584x512.ShapeCasts S3584x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S3x512x512_S1x512x512_0_0_0 : S3x512x512.Slices ![0, 0, 0] S1x512x512
  shapeCasts_S1x512x512_S512x512 : S1x512x512.ShapeCasts S512x512
  bcast_S_S10000x512 : S_.BroadcastsInDim S10000x512 (![] : Fin 0 → Fin S10000x512.rank)
  slices_S3x3584x512_S1x3584x512_1_0_0 : S3x3584x512.Slices ![1, 0, 0] S1x3584x512
  slices_S3x512_S1x512_1_0 : S3x512.Slices ![1, 0] S1x512
  slices_S3x512x512_S1x512x512_1_0_0 : S3x512x512.Slices ![1, 0, 0] S1x512x512
  slices_S3x3584x512_S1x3584x512_2_0_0 : S3x3584x512.Slices ![2, 0, 0] S1x3584x512
  slices_S3x512_S1x512_2_0 : S3x512.Slices ![2, 0] S1x512
  slices_S3x512x512_S1x512x512_2_0_0 : S3x512x512.Slices ![2, 0, 0] S1x512x512
  reducesTo_S10000x512_S512_d0 : S10000x512.ReducesTo [0] S512
  h_S_ : 0 < S_.numel
  gather_S10000x512_S160000x1_S160000x512_1_0_n_n_0_1_1512_wf : GatherDims.WF S10000x512 S160000x1 S160000x512 [1] [0] [] [0] [] 1 ![1, 512]
  scatter_S70000x512_S160000x1_S160000x512_1_0_0_1_wf : ScatterDims.WF S70000x512 S160000x1 S160000x512 [1] [0] [0] 1
  dot_S10000x3584_S3584x512_S10000x512_1_0_0_1_n_n_wf : DotDims.WF S10000x3584 S3584x512 S10000x512 [1] [0] [0] [1] [] []
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S70000x512_S160000x1_S160000x512_1_0_0_1 : ScatterDims S70000x512 S160000x1 S160000x512 where
  updateWindowDims := [1]
  insertedWindowDims := [0]
  scatterDimsToOperandDims := [0]
  indexVectorDim := 1
  wf := scatter_S70000x512_S160000x1_S160000x512_1_0_0_1_wf
def dot_S10000x3584_S3584x512_S10000x512_1_0_0_1_n_n : DotDims S10000x3584 S3584x512 S10000x512 where
  lhsContracting := [1]
  rhsContracting := [0]
  lhsNonContracting := [0]
  rhsNonContracting := [1]
  lhsBatch := []
  rhsBatch := []
  wf := dot_S10000x3584_S3584x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Layer.lean ====
/-
  One layer's combine step on whole arrays, on the extended reals.

  With U the aggregated messages (10000 × 3584), Wl the layer's message weights (3584 × 512), H the node features
  (10000 × 512), Ws the self-loop weights (512 × 512) and b a one-row bias (1 × 512), the layer's new node features are
      layer U Wl H Ws b [n, d] = max ((Σ_k U[n,k]·Wl[k,d] + Σ_k H[n,k]·Ws[k,d]) + b[0,d], 0).
  The kernel computes it 1000 rows at a time; row n of the array is row n mod 1000 of block n / 1000. The last layer
  also writes, for each block, 8 copies of the block's column sums: `tileSums`.
-/
import proofs.«108785_j781684048169_2_alg».proof.KernelIdeal
import Idealize.ShloMosaic.PureOps.Ideal

noncomputable section

namespace Cert.KernelIdeal.Layer

open Cert.KernelIdeal Idealize.ShloMosaic

/-- Row `i 0`, contracted coordinate `k`, of the aggregated messages. -/
abbrev aU (i : S10000x512.Idx) (k : Fin 3584) : S10000x3584.Idx := fun a => match a with
  | ⟨0, _⟩ => ⟨(i 0).val, (i 0).isLt⟩
  | ⟨1, _⟩ => ⟨k.val, k.isLt⟩
/-- Contracted coordinate `k`, column `i 1`, of the message weights. -/
abbrev aWl (i : S10000x512.Idx) (k : Fin 3584) : S3584x512.Idx := fun a => match a with
  | ⟨0, _⟩ => ⟨k.val, k.isLt⟩
  | ⟨1, _⟩ => ⟨(i 1).val, (i 1).isLt⟩
/-- Row `i 0`, contracted coordinate `k`, of the node features. -/
abbrev aH (i : S10000x512.Idx) (k : Fin 512) : S10000x512.Idx := fun a => match a with
  | ⟨0, _⟩ => ⟨(i 0).val, (i 0).isLt⟩
  | ⟨1, _⟩ => ⟨k.val, k.isLt⟩
/-- Contracted coordinate `k`, column `i 1`, of the self-loop weights. -/
abbrev aWs (i : S10000x512.Idx) (k : Fin 512) : S512x512.Idx := fun a => match a with
  | ⟨0, _⟩ => ⟨k.val, k.isLt⟩
  | ⟨1, _⟩ => ⟨(i 1).val, (i 1).isLt⟩
/-- Column `i 1` of the one-row bias. -/
abbrev aB (i : S10000x512.Idx) : S1x512.Idx := fun a => match a with
  | ⟨0, _⟩ => ⟨0, Nat.zero_lt_one⟩
  | ⟨1, _⟩ => ⟨(i 1).val, (i 1).isLt⟩

/-- The layer's new node features, entry by entry. -/
def layer (U : S10000x3584.Idx → EReal) (Wl : S3584x512.Idx → EReal) (H : S10000x512.Idx → EReal) (Ws : S512x512.Idx → EReal)
    (B : S1x512.Idx → EReal) : S10000x512.Idx → EReal := fun i =>
  max (((∑ k : Fin 3584, U (aU i k) * Wl (aWl i k)) + ∑ k : Fin 512, H (aH i k) * Ws (aWs i k)) + B (aB i)) 0

/-- Row `r` of the block that row `y 0` of the 80-row array of per-block sums belongs to (block `y 0 / 8`), column `y 1`. -/
abbrev tRow (y : S80x512.Idx) (r : Fin 1000) : S10000x512.Idx := fun a => match a with
  | ⟨0, _⟩ => ⟨1000 * ((y 0).val / 8) + r.val, by have := (y 0).isLt; have := r.isLt; show _ < 10000; have h80 : (y 0).val < 80 := (y 0).isLt; omega⟩
  | ⟨1, _⟩ => ⟨(y 1).val, (y 1).isLt⟩

/-- Row `y 0` of the per-block sums: column `y 1` of the layer's result summed over the 1000 rows of block `y 0 / 8`. -/
def tileSums (X : S10000x512.Idx → EReal) : S80x512.Idx → EReal := fun y => ∑ r : Fin 1000, X (tRow y r)

end Cert.KernelIdeal.Layer

end
-- ==== Proof.HostTerms.lean ====
/-
  The host operations around the three kernel regions, as functions of arrays, on the extended reals.

  Every layer first aggregates messages on the host: edge e carries weight ew[e] times row node_in[e] of the current node
  features, and the edges are summed by segment node_out[e]·7 + relation[e] into 70000 rows, read as 10000 rows of
  7·512 entries (`aggregate`; the gather and the accumulating scatter are never opened here: the reference applies the
  same two operations to the same operands). Layer l's weights are slice l of the two weight tensors (the change of
  float format applied to them is the identity on the extended reals) and its bias is the sum of slice l of the two bias
  tensors, as one row. The last stretch sums the 80 rows of per-block column sums and divides by 8.

  `Args` names the nine argument arrays; `feat1`, `feat2`, `feat3` are the node features after each layer and `graphFeat`
  the readout, all as functions of the arguments.
-/
import proofs.«108785_j781684048169_2_alg».proof.Proof.Gen.KernelIdeal
import proofs.«108785_j781684048169_2_alg».proof.Proof.Layer
import Idealize.ShloMosaic.PureOps.Ideal

noncomputable section

namespace Cert.KernelIdeal.HostTerms

open Cert.KernelIdeal Cert.KernelIdeal.Facts₀ Cert.KernelIdeal.Facts Cert.KernelIdeal.Layer Idealize.ShloMosaic Idealize.ShloMosaic.TcCoe Idealize.SL.Sem

/-- The contents of a buffer of the given shape and element type, on the extended reals. -/
abbrev C (s : Shape) (e : EltTy) : Type := (⟨s, e⟩ : BufTy).Contents (Elt Ideal)

/-- The nine argument arrays. -/
structure Args where
  x : C S10000x512 .f32
  ew : C S160000 .f32
  wlin : C S3x3584x512 .f32
  blin : C S3x512 .f32
  wself : C S3x512x512 .f32
  bself : C S3x512 .f32
  nodeIn : C S160000 .i32
  nodeOut : C S160000 .i32
  rel : C S160000 .i32

/-- The segment of each edge: node_out · 7 + relation. -/
def segIds (no rel : C S160000 .i32) : C S160000 .i32 :=
  addi (muli no (broadcastInDim S160000 ![] bcast_S_S160000 (constantI S_ 32 7#32))) rel

/-- The aggregated messages of node features `h`: weighted gathered rows, summed by segment, 7 segments to a row. -/
def aggregate (h : C S10000x512 .f32) (ew : C S160000 .f32) (ni sg : C S160000 .i32) : C S10000x3584 .f32 :=
  shapeCast S10000x3584
    (Host.scatterAdd scatter_S70000x512_S160000x1_S160000x512_1_0_0_1
      (broadcastInDim S70000x512 ![] bcast_S_S70000x512 (constant (F := Ideal) S_ .f32 0x00000000#32))
      (broadcastInDim S160000x1 ![0] bcast_S160000_S160000x1_0 sg)
      (mulf
        (broadcastInDim S160000x512 ![0, 1] bcast_S160000x1_S160000x512_0_1
          (broadcastInDim S160000x1 ![0] bcast_S160000_S160000x1_0 ew))
        (Host.gather gather_S10000x512_S160000x1_S160000x512_1_0_n_n_0_1_1512 h
          (broadcastInDim S160000x1 ![0] bcast_S160000_S160000x1_0
            (select
              (cmpi CmpIPredicate.slt ni (broadcastInDim S160000 ![] bcast_S_S160000 (constantI S_ 32 0#32)))
              (addi ni (broadcastInDim S160000 ![] bcast_S_S160000 (constantI S_ 32 10000#32)))
              ni)))))
    shapeCasts_S70000x512_S10000x3584

/-- The two weight tensors after the host's change of float format (the identity on the extended reals). -/
def wlinCast (w : C S3x3584x512 .f32) : C S3x3584x512 .bf16 := truncf (F := Ideal) (φ := .f32) .bf16 w bitsLt_bf16_f32
def wselfCast (w : C S3x512x512 .f32) : C S3x512x512 .bf16 := truncf (F := Ideal) (φ := .f32) .bf16 w bitsLt_bf16_f32

/-- Layer 0's message weights: slice 0 of the cast tensor, as a matrix. -/
def wl0 (w : C S3x3584x512 .bf16) : C S3584x512 .bf16 :=
  shapeCast S3584x512 (extractStridedSlice S1x3584x512 ![0, 0, 0] w slices_S3x3584x512_S1x3584x512_0_0_0) shapeCasts_S1x3584x512_S3584x512
/-- Layer 0's self-loop weights: slice 0 of the cast tensor, as a matrix. -/
def ws0 (w : C S3x512x512 .bf16) : C S512x512 .bf16 :=
  shapeCast S512x512 (extractStridedSlice S1x512x512 ![0, 0, 0] w slices_S3x512x512_S1x512x512_0_0_0) shapeCasts_S1x512x512_S512x512
/-- Layer 0's bias row: row 0 of the message bias plus row 0 of the self-loop bias. -/
def bias0 (bl bs : C S3x512 .f32) : C S1x512 .f32 :=
  shapeCast S1x512
    (addf (F := Ideal) (φ := .f32) (shapeCast S512 (extractStridedSlice S1x512 ![0, 0] bl slices_S3x512_S1x512_0_0) shapeCasts_S1x512_S512)
      (shapeCast S512 (extractStridedSlice S1x512 ![0, 0] bs slices_S3x512_S1x512_0_0) shapeCasts_S1x512_S512))
    shapeCasts_S512_S1x512

/-- Layer 1's message weights: slice 1 of the cast tensor, as a matrix. -/
def wl1 (w : C S3x3584x512 .bf16) : C S3584x512 .bf16 :=
  shapeCast S3584x512 (extractStridedSlice S1x3584x512 ![1, 0, 0] w slices_S3x3584x512_S1x3584x512_1_0_0) shapeCasts_S1x3584x512_S3584x512
/-- Layer 1's self-loop weights: slice 1 of the cast tensor, as a matrix. -/
def ws1 (w : C S3x512x512 .bf16) : C S512x512 .bf16 :=
  shapeCast S512x512 (extractStridedSlice S1x512x512 ![1, 0, 0] w slices_S3x512x512_S1x512x512_1_0_0) shapeCasts_S1x512x512_S512x512
/-- Layer 1's bias row: row 1 of the message bias plus row 1 of the self-loop bias. -/
def bias1 (bl bs : C S3x512 .f32) : C S1x512 .f32 :=
  shapeCast S1x512
    (addf (F := Ideal) (φ := .f32) (shapeCast S512 (extractStridedSlice S1x512 ![1, 0] bl slices_S3x512_S1x512_1_0) shapeCasts_S1x512_S512)
      (shapeCast S512 (extractStridedSlice S1x512 ![1, 0] bs slices_S3x512_S1x512_1_0) shapeCasts_S1x512_S512))
    shapeCasts_S512_S1x512

/-- Layer 2's message weights: slice 2 of the cast tensor, as a matrix. -/
def wl2 (w : C S3x3584x512 .bf16) : C S3584x512 .bf16 :=
  shapeCast S3584x512 (extractStridedSlice S1x3584x512 ![2, 0, 0] w slices_S3x3584x512_S1x3584x512_2_0_0) shapeCasts_S1x3584x512_S3584x512
/-- Layer 2's self-loop weights: slice 2 of the cast tensor, as a matrix. -/
def ws2 (w : C S3x512x512 .bf16) : C S512x512 .bf16 :=
  shapeCast S512x512 (extractStridedSlice S1x512x512 ![2, 0, 0] w slices_S3x512x512_S1x512x512_2_0_0) shapeCasts_S1x512x512_S512x512
/-- Layer 2's bias row: row 2 of the message bias plus row 2 of the self-loop bias. -/
def bias2 (bl bs : C S3x512 .f32) : C S1x512 .f32 :=
  shapeCast S1x512
    (addf (F := Ideal) (φ := .f32) (shapeCast S512 (extractStridedSlice S1x512 ![2, 0] bl slices_S3x512_S1x512_2_0) shapeCasts_S1x512_S512)
      (shapeCast S512 (extractStridedSlice S1x512 ![2, 0] bs slices_S3x512_S1x512_2_0) shapeCasts_S1x512_S512))
    shapeCasts_S512_S1x512

/-- The readout from the 80 rows of per-block column sums: their sum over the rows, divided by 8. -/
def readout (p : C S80x512 .f32) : C S512 .f32 :=
  Host.divf (Host.reduceAdd p (constant (F := Ideal) S_ .f32 0x00000000#32) reducesTo_S80x512_S512_d0 h_S_)
    (broadcastInDim S512 ![] bcast_S_S512 (constant (F := Ideal) S_ .f32 0x41000000#32))

/-- One layer of the kernel on whole arrays: aggregate on the host, then the combine step. -/
def step0 (A : Args) (h : C S10000x512 .f32) : C S10000x512 .f32 :=
  layer (aggregate h A.ew A.nodeIn (segIds A.nodeOut A.rel)) (wl0 (wlinCast A.wlin)) h (ws0 (wselfCast A.wself)) (bias0 A.blin A.bself)
def step1 (A : Args) (h : C S10000x512 .f32) : C S10000x512 .f32 :=
  layer (aggregate h A.ew A.nodeIn (segIds A.nodeOut A.rel)) (wl1 (wlinCast A.wlin)) h (ws1 (wselfCast A.wself)) (bias1 A.blin A.bself)
def step2 (A : Args) (h : C S10000x512 .f32) : C S10000x512 .f32 :=
  layer (aggregate h A.ew A.nodeIn (segIds A.nodeOut A.rel)) (wl2 (wlinCast A.wlin)) h (ws2 (wselfCast A.wself)) (bias2 A.blin A.bself)

/-- The node features after layers 1, 2, 3, and the readout, as the kernel computes them. -/
def feat1 (A : Args) : C S10000x512 .f32 := step0 A A.x
def feat2 (A : Args) : C S10000x512 .f32 := step1 A (feat1 A)
def feat3 (A : Args) : C S10000x512 .f32 := step2 A (feat2 A)
def graphFeat (A : Args) : C S512 .f32 := readout (tileSums (feat3 A))

end Cert.KernelIdeal.HostTerms

end
-- ==== Proof.Combine.lean ====
/-
  One block of a layer's combine step, read entry by entry on the extended reals.

  A block is 1000 consecutive rows. The body multiplies the block of aggregated messages (1000 × 3584) by the layer's
  message weights (3584 × 512), multiplies the block of node features (1000 × 512) by the layer's self-loop weights
  (512 × 512), adds the two products, adds the bias row to every row, and takes the maximum with zero. On the extended
  reals a change of float format is the identity and a matrix product accumulated into zero is the plain sum of
  products over the contracted coordinate, so entry (r, d) of the result is
      max ((Σ_k U[r,k]·Wl[k,d] + Σ_k H[r,k]·Ws[k,d]) + b[0,d], 0).
  The last layer's body also sums the result over the block's 1000 rows and copies that row into 8 rows.
-/
import proofs.«108785_j781684048169_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine

open Cert.KernelIdeal Cert.KernelIdeal.Gen Idealize.ShloMosaic Idealize.ShloMosaic.TcCoe Idealize.SL.Sem

/-! ## Where an entry of a block's result reads its operands -/

/-- Row `j 0`, contracted coordinate `k`, of the block of aggregated messages. -/
abbrev bU (j : S1000x512.Idx) (k : Fin 3584) : S1000x3584.Idx := fun a => match a with
  | ⟨0, _⟩ => ⟨(j 0).val, (j 0).isLt⟩
  | ⟨1, _⟩ => ⟨k.val, k.isLt⟩
/-- Contracted coordinate `k`, column `j 1`, of the message weights. -/
abbrev bWl (j : S1000x512.Idx) (k : Fin 3584) : S3584x512.Idx := fun a => match a with
  | ⟨0, _⟩ => ⟨k.val, k.isLt⟩
  | ⟨1, _⟩ => ⟨(j 1).val, (j 1).isLt⟩
/-- Row `j 0`, contracted coordinate `k`, of the block of node features. -/
abbrev bH (j : S1000x512.Idx) (k : Fin 512) : S1000x512.Idx := fun a => match a with
  | ⟨0, _⟩ => ⟨(j 0).val, (j 0).isLt⟩
  | ⟨1, _⟩ => ⟨k.val, k.isLt⟩
/-- Contracted coordinate `k`, column `j 1`, of the self-loop weights. -/
abbrev bWs (j : S1000x512.Idx) (k : Fin 512) : S512x512.Idx := fun a => match a with
  | ⟨0, _⟩ => ⟨k.val, k.isLt⟩
  | ⟨1, _⟩ => ⟨(j 1).val, (j 1).isLt⟩
/-- Column `j 1` of the one-row bias. -/
abbrev bB (j : S1000x512.Idx) : S1x512.Idx := fun a => match a with
  | ⟨0, _⟩ => ⟨0, Nat.zero_lt_one⟩
  | ⟨1, _⟩ => ⟨(j 1).val, (j 1).isLt⟩

/-! ## The two matrix products as sums -/

theorem mm_msg_lhs0 (j : S1000x512.Idx) (q : dot_S1000x3584_S3584x512_S1000x512_1_0_0_1_n_n.contr.Idx) : (dot_S1000x3584_S3584x512_S1000x512_1_0_0_1_n_n.lhsIdx j q 0).val = (j 0).val := by
  unfold DotDims.lhsIdx
  rw [dif_neg (show ¬(0 : Fin S1000x3584.rank) ∈ dot_S1000x3584_S3584x512_S1000x512_1_0_0_1_n_n.lhsBatch by decide), dif_pos (show (0 : Fin S1000x3584.rank) ∈ dot_S1000x3584_S3584x512_S1000x512_1_0_0_1_n_n.lhsNonContracting by decide)]
  rfl
theorem mm_msg_lhs1 (j : S1000x512.Idx) (q : dot_S1000x3584_S3584x512_S1000x512_1_0_0_1_n_n.contr.Idx) : (dot_S1000x3584_S3584x512_S1000x512_1_0_0_1_n_n.lhsIdx j q 1).val = (q ⟨0, by decide⟩).val :=
  dot_S1000x3584_S3584x512_S1000x512_1_0_0_1_n_n.lhsIdx_val_of_single rfl j q
theorem mm_msg_rhs0 (j : S1000x512.Idx) (q : dot_S1000x3584_S3584x512_S1000x512_1_0_0_1_n_n.contr.Idx) : (dot_S1000x3584_S3584x512_S1000x512_1_0_0_1_n_n.rhsIdx j q 0).val = (q ⟨0, by decide⟩).val :=
  dot_S1000x3584_S3584x512_S1000x512_1_0_0_1_n_n.rhsIdx_val_of_single rfl j q
theorem mm_msg_rhs1 (j : S1000x512.Idx) (q : dot_S1000x3584_S3584x512_S1000x512_1_0_0_1_n_n.contr.Idx) : (dot_S1000x3584_S3584x512_S1000x512_1_0_0_1_n_n.rhsIdx j q 1).val = (j 1).val := by
  unfold DotDims.rhsIdx
  rw [dif_neg (show ¬(1 : Fin S3584x512.rank) ∈ dot_S1000x3584_S3584x512_S1000x512_1_0_0_1_n_n.rhsBatch by decide), dif_pos (show (1 : Fin S3584x512.rank) ∈ dot_S1000x3584_S3584x512_S1000x512_1_0_0_1_n_n.rhsNonContracting by decide)]
  rfl

/-- The product of a block of aggregated messages with its weight matrix, accumulated into zero, is at row `j 0` and
    column `j 1` the sum over the 3584 contracted coordinates of the products of the two entries. -/
theorem mm_msg (x : FVec Ideal S1000x3584 .bf16) (w : FVec Ideal S3584x512 .bf16) (j : S1000x512.Idx) :
    matmul dot_S1000x3584_S3584x512_S1000x512_1_0_0_1_n_n none x w (constant S1000x512 .f32 0x00000000#32) j
      = ∑ k : Fin 3584, x (bU j k) * w (bWl j k) := by
  simp only [matmul]
  rw [Ideal.matmul_constant_zero_apply, ← Equiv.sum_comp (ValueIdx.contrEquiv1 dot_S1000x3584_S3584x512_S1000x512_1_0_0_1_n_n 3584 rfl rfl).symm]
  refine Finset.sum_congr rfl fun k _ => ?_
  have hk := ValueIdx.contrEquiv1_symm_val dot_S1000x3584_S3584x512_S1000x512_1_0_0_1_n_n 3584 rfl rfl k
  have el : dot_S1000x3584_S3584x512_S1000x512_1_0_0_1_n_n.lhsIdx j ((ValueIdx.contrEquiv1 dot_S1000x3584_S3584x512_S1000x512_1_0_0_1_n_n 3584 rfl rfl).symm k) = bU j k := funext fun a => Fin.ext (by
    match a with
    | ⟨0, _⟩ => exact mm_msg_lhs0 _ _
    | ⟨1, _⟩ => exact (mm_msg_lhs1 _ _).trans hk)
  have er : dot_S1000x3584_S3584x512_S1000x512_1_0_0_1_n_n.rhsIdx j ((ValueIdx.contrEquiv1 dot_S1000x3584_S3584x512_S1000x512_1_0_0_1_n_n 3584 rfl rfl).symm k) = bWl j k := funext fun a => Fin.ext (by
    match a with
    | ⟨0, _⟩ => exact (mm_msg_rhs0 _ _).trans hk
    | ⟨1, _⟩ => exact mm_msg_rhs1 _ _)
  rw [el, er]

theorem mm_self_lhs0 (j : S1000x512.Idx) (q : dot_S1000x512_S512x512_S1000x512_1_0_0_1_n_n.contr.Idx) : (dot_S1000x512_S512x512_S1000x512_1_0_0_1_n_n.lhsIdx j q 0).val = (j 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem mm_self_lhs1 (j : S1000x512.Idx) (q : dot_S1000x512_S512x512_S1000x512_1_0_0_1_n_n.contr.Idx) : (dot_S1000x512_S512x512_S1000x512_1_0_0_1_n_n.lhsIdx j q 1).val = (q ⟨0, by decide⟩).val :=
  dot_S1000x512_S512x512_S1000x512_1_0_0_1_n_n.lhsIdx_val_of_single rfl j q
theorem mm_self_rhs0 (j : S1000x512.Idx) (q : dot_S1000x512_S512x512_S1000x512_1_0_0_1_n_n.contr.Idx) : (dot_S1000x512_S512x512_S1000x512_1_0_0_1_n_n.rhsIdx j q 0).val = (q ⟨0, by decide⟩).val :=
  dot_S1000x512_S512x512_S1000x512_1_0_0_1_n_n.rhsIdx_val_of_single rfl j q
theorem mm_self_rhs1 (j : S1000x512.Idx) (q : dot_S1000x512_S512x512_S1000x512_1_0_0_1_n_n.contr.Idx) : (dot_S1000x512_S512x512_S1000x512_1_0_0_1_n_n.rhsIdx j q 1).val = (j 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The product of a block of node features with its weight matrix, accumulated into zero, is at row `j 0` and
    column `j 1` the sum over the 512 contracted coordinates of the products of the two entries. -/
theorem mm_self (x : FVec Ideal S1000x512 .bf16) (w : FVec Ideal S512x512 .bf16) (j : S1000x512.Idx) :
    matmul dot_S1000x512_S512x512_S1000x512_1_0_0_1_n_n none x w (constant S1000x512 .f32 0x00000000#32) j
      = ∑ k : Fin 512, x (bH j k) * w (bWs j k) := by
  simp only [matmul]
  rw [Ideal.matmul_constant_zero_apply, ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx j ((ValueIdx.contrEquiv1 dot_S1000x512_S512x512_S1000x512_1_0_0_1_n_n 512 rfl rfl).symm k) = bH j k := funext fun a => Fin.ext (by
    match a with
    | ⟨0, _⟩ => exact mm_self_lhs0 _ _
    | ⟨1, _⟩ => exact (mm_self_lhs1 _ _).trans hk)
  have er : dot_S1000x512_S512x512_S1000x512_1_0_0_1_n_n.rhsIdx j ((ValueIdx.contrEquiv1 dot_S1000x512_S512x512_S1000x512_1_0_0_1_n_n 512 rfl rfl).symm k) = bWs j k := funext fun a => Fin.ext (by
    match a with
    | ⟨0, _⟩ => exact (mm_self_rhs0 _ _).trans hk
    | ⟨1, _⟩ => exact mm_self_rhs1 _ _)
  rw [el, er]

/-! ## A block's result at an entry -/

/-- The bias row broadcast over the block's rows reads column `j 1` of the row. -/
theorem bias_apply (b : FVec Ideal S1x512 .f32) (j : S1000x512.Idx) :
    broadcastTo S1000x512 b broadcasts_S1x512_S1000x512 j = b (bB j) := by
  refine broadcastTo_apply b broadcasts_S1x512_S1000x512 j (bB j) fun a => ?_
  match a with
  | ⟨0, _⟩ => rfl
  | ⟨1, _⟩ => rfl

/-- The combine step of one block at entry `j`, as a function of the five blocks it reads. -/
def blockVal (u : S1000x3584.Idx → EReal) (wl : S3584x512.Idx → EReal) (h : S1000x512.Idx → EReal) (ws : S512x512.Idx → EReal)
    (b : S1x512.Idx → EReal) (j : S1000x512.Idx) : EReal :=
  max (((∑ k : Fin 3584, u (bU j k) * wl (bWl j k)) + ∑ k : Fin 512, h (bH j k) * ws (bWs j k)) + b (bB j)) 0

theorem pay0_apply (v0 : Vec Ideal S1000x3584 .f32) (v3 : Vec Ideal S1000x512 .f32) (v5 : Vec Ideal S3584x512 .bf16)
    (v8 : Vec Ideal S512x512 .bf16) (v12 : Vec Ideal S1x512 .f32) (j : S1000x512.Idx) :
    k0_pay1 (F := Ideal) v0 v3 v5 v8 v12 j = blockVal v0 v5 v3 v8 v12 j := by
  unfold k0_pay1 blockVal
  simp only [shapeCast_self]
  show max ((matmul (F := Ideal) dot_S1000x3584_S3584x512_S1000x512_1_0_0_1_n_n none (truncf (F := Ideal) .bf16 v0 bitsLt_bf16_f32) v5 (constant (F := Ideal) S1000x512 .f32 0x00000000#32) j
      + matmul (F := Ideal) dot_S1000x512_S512x512_S1000x512_1_0_0_1_n_n none (truncf (F := Ideal) .bf16 v3 bitsLt_bf16_f32) v8 (constant (F := Ideal) S1000x512 .f32 0x00000000#32) j)
      + broadcastTo S1000x512 v12 broadcasts_S1x512_S1000x512 j) (Ideal.ofBits .f32 0x00000000#32) = _
  rw [mm_msg, mm_self, bias_apply, Ideal.ofBits_zero_f32]
  rfl

theorem pay1_apply (v0 : Vec Ideal S1000x3584 .f32) (v3 : Vec Ideal S1000x512 .f32) (v6 : Vec Ideal S3584x512 .bf16)
    (v9 : Vec Ideal S512x512 .bf16) (v13 : Vec Ideal S1x512 .f32) (j : S1000x512.Idx) :
    k1_pay1 (F := Ideal) v0 v3 v6 v9 v13 j = blockVal v0 v6 v3 v9 v13 j := by
  unfold k1_pay1 blockVal
  simp only [shapeCast_self]
  show max ((matmul (F := Ideal) dot_S1000x3584_S3584x512_S1000x512_1_0_0_1_n_n none (truncf (F := Ideal) .bf16 v0 bitsLt_bf16_f32) v6 (constant (F := Ideal) S1000x512 .f32 0x00000000#32) j
      + matmul (F := Ideal) dot_S1000x512_S512x512_S1000x512_1_0_0_1_n_n none (truncf (F := Ideal) .bf16 v3 bitsLt_bf16_f32) v9 (constant (F := Ideal) S1000x512 .f32 0x00000000#32) j)
      + broadcastTo S1000x512 v13 broadcasts_S1x512_S1000x512 j) (Ideal.ofBits .f32 0x00000000#32) = _
  rw [mm_msg, mm_self, bias_apply, Ideal.ofBits_zero_f32]
  rfl

theorem pay2_apply (v0 : Vec Ideal S1000x3584 .f32) (v3 : Vec Ideal S1000x512 .f32) (v6 : Vec Ideal S3584x512 .bf16)
    (v9 : Vec Ideal S512x512 .bf16) (v13 : Vec Ideal S1x512 .f32) (j : S1000x512.Idx) :
    k2_pay1 (F := Ideal) v0 v3 v6 v9 v13 j = blockVal v0 v6 v3 v9 v13 j := by
  unfold k2_pay1 blockVal
  simp only [shapeCast_self]
  show max ((matmul (F := Ideal) dot_S1000x3584_S3584x512_S1000x512_1_0_0_1_n_n none (truncf (F := Ideal) .bf16 v0 bitsLt_bf16_f32) v6 (constant (F := Ideal) S1000x512 .f32 0x00000000#32) j
      + matmul (F := Ideal) dot_S1000x512_S512x512_S1000x512_1_0_0_1_n_n none (truncf (F := Ideal) .bf16 v3 bitsLt_bf16_f32) v9 (constant (F := Ideal) S1000x512 .f32 0x00000000#32) j)
      + broadcastTo S1000x512 v13 broadcasts_S1x512_S1000x512 j) (Ideal.ofBits .f32 0x00000000#32) = _
  rw [mm_msg, mm_self, bias_apply, Ideal.ofBits_zero_f32]
  rfl

/-! ## The last layer's per-block column sums -/

/-- Row `r`, column `y 1`, of a block's result. -/
abbrev bRow (y : S8x512.Idx) (r : Fin 1000) : S1000x512.Idx := fun a => match a with
  | ⟨0, _⟩ => ⟨r.val, r.isLt⟩
  | ⟨1, _⟩ => ⟨(y 1).val, (y 1).isLt⟩
/-- Column `y 1` of the one-row array of column sums. -/
abbrev bSumRow (y : S8x512.Idx) : S1x512.Idx := fun a => match a with
  | ⟨0, _⟩ => ⟨0, Nat.zero_lt_one⟩
  | ⟨1, _⟩ => ⟨(y 1).val, (y 1).isLt⟩

/-- The sum over a block's rows, accumulated from zero, is at column `d` the sum over the 1000 rows of that column. -/
theorem colsum_apply (src : FVec Ideal S1000x512 .f32) (d : S512.Idx) :
    multiReduction (F := Ideal) .add [0] S512 src 0x00000000#32 reduces_S1000x512_S512 (.inl rfl) rfl d
      = ∑ r : Fin 1000, src (fun a => match a with
          | ⟨0, _⟩ => ⟨r.val, r.isLt⟩
          | ⟨1, _⟩ => ⟨(d 0).val, (d 0).isLt⟩) := by
  refine (Ideal.multiReduction_add_single src 0x00000000#32 reduces_S1000x512_S512 (.inl rfl) rfl d).trans ?_
  refine Finset.sum_congr rfl fun r _ => congrArg src (funext fun a => Fin.ext ?_)
  match a with
  | ⟨0, _⟩ => rfl
  | ⟨1, _⟩ => rfl

/-- Each of the 8 rows the last layer's body writes for a block holds, in column `y 1`, the sum of that column of the
    block's result over the block's 1000 rows. -/
theorem pay2sum_apply (v0 : Vec Ideal S1000x3584 .f32) (v3 : Vec Ideal S1000x512 .f32) (v6 : Vec Ideal S3584x512 .bf16)
    (v9 : Vec Ideal S512x512 .bf16) (v13 : Vec Ideal S1x512 .f32) (y : S8x512.Idx) :
    k2_pay2 (F := Ideal) v0 v3 v6 v9 v13 y = ∑ r : Fin 1000, blockVal v0 v6 v3 v9 v13 (bRow y r) := by
  unfold k2_pay2
  simp only [shapeCast_self]
  rw [broadcastTo_apply _ broadcasts_S1x512_S8x512 y (bSumRow y) (fun a => by
    match a with
    | ⟨0, _⟩ => rfl
    | ⟨1, _⟩ => rfl)]
  refine (shapeCast_addUnit_apply (n := 1) ![512] _ shapeCasts_S512_S1x512 (bSumRow y)).trans ?_
  refine (colsum_apply _ _).trans ?_
  exact Finset.sum_congr rfl fun r _ => pay2_apply v0 v3 v6 v9 v13 _

end Cert.KernelIdeal.Combine

end
-- ==== Proof.Region0.lean ====
/-
  Region 0 of the idealized kernel: what its output array holds when the grid has run, as a function of the five
  arrays the region finds, whatever they are.

  The grid has 10 points. Point t reads rows 1000·t … 1000·t + 999 of the aggregated messages and of the node features,
  reads the two weight matrices and the bias row whole, and writes rows 1000·t … 1000·t + 999 of the output. So what point t writes back is block t of `Layer.layer` of the five arrays, and the 10 blocks cover the output: the array ends equal to that function.
-/
import proofs.«108785_j781684048169_2_alg».proof.Proof.Gen.KernelIdeal.Frame
import proofs.«108785_j781684048169_2_alg».proof.Proof.Combine
import proofs.«108785_j781684048169_2_alg».proof.Proof.Layer

set_option maxRecDepth 16384

noncomputable section

namespace Cert.KernelIdeal.Region0

open Cert.KernelIdeal Cert.KernelIdeal.Gen Cert.KernelIdeal.Combine Cert.KernelIdeal.Layer
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block t, the resident ones at block 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-! ## Each input block read where the output block's entry says -/

theorem read_U (c : Dev nD) (t : Fin cfg0.N) (j : S1000x512.Idx) (k : Fin 3584) :
    iblk0 V c 0 t (bU j k) = V c main_v18 (aU (((cfg0.win 5).blk t).view.emb j) k) := by
  obtain ⟨e00, e01, e10, e11, e20, e21, e30, e31, e40, e41, e50, e51⟩ := idx_facts t
  show V c main_v18 (((cfg0.win 0).blk t).view.emb (bU j k)) = _
  refine congrArg (V c main_v18) (funext fun a => Fin.ext ?_)
  match a with
  | ⟨0, _⟩ =>
    show win0_0.index t (0 : Fin 2) * 1000 + 1 * (j 0).val = ((((cfg0.win 5).blk t).view.emb j) 0).val
    have hout : ((((cfg0.win 5).blk t).view.emb j) 0).val = win0_5.index t (0 : Fin 2) * 1000 + 1 * (j 0).val := rfl
    omega
  | ⟨1, _⟩ =>
    show win0_0.index t (1 : Fin 2) * 3584 + 1 * k.val = k.val
    omega

theorem read_Wl (c : Dev nD) (t : Fin cfg0.N) (j : S1000x512.Idx) (k : Fin 3584) :
    iblk0 V c 1 t (bWl j k) = V c main_v25 (aWl (((cfg0.win 5).blk t).view.emb j) k) := by
  obtain ⟨e00, e01, e10, e11, e20, e21, e30, e31, e40, e41, e50, e51⟩ := idx_facts t
  show V c main_v25 (((cfg0.win 1).blk t).view.emb (bWl j k)) = _
  refine congrArg (V c main_v25) (funext fun a => Fin.ext ?_)
  match a with
  | ⟨0, _⟩ =>
    show win0_1.index t (0 : Fin 2) * 3584 + 1 * k.val = k.val
    omega
  | ⟨1, _⟩ =>
    show win0_1.index t (1 : Fin 2) * 512 + 1 * (j 1).val = ((((cfg0.win 5).blk t).view.emb j) 1).val
    have hout : ((((cfg0.win 5).blk t).view.emb j) 1).val = win0_5.index t (1 : Fin 2) * 512 + 1 * (j 1).val := rfl
    omega

theorem read_H (c : Dev nD) (t : Fin cfg0.N) (j : S1000x512.Idx) (k : Fin 512) :
    iblk0 V c 2 t (bH j k) = V c main_arg0 (aH (((cfg0.win 5).blk t).view.emb j) k) := by
  obtain ⟨e00, e01, e10, e11, e20, e21, e30, e31, e40, e41, e50, e51⟩ := idx_facts t
  show V c main_arg0 (((cfg0.win 2).blk t).view.emb (bH j k)) = _
  refine congrArg (V c main_arg0) (funext fun a => Fin.ext ?_)
  match a with
  | ⟨0, _⟩ =>
    show win0_2.index t (0 : Fin 2) * 1000 + 1 * (j 0).val = ((((cfg0.win 5).blk t).view.emb j) 0).val
    have hout : ((((cfg0.win 5).blk t).view.emb j) 0).val = win0_5.index t (0 : Fin 2) * 1000 + 1 * (j 0).val := rfl
    omega
  | ⟨1, _⟩ =>
    show win0_2.index t (1 : Fin 2) * 512 + 1 * k.val = k.val
    omega

theorem read_Ws (c : Dev nD) (t : Fin cfg0.N) (j : S1000x512.Idx) (k : Fin 512) :
    iblk0 V c 3 t (bWs j k) = V c main_v27 (aWs (((cfg0.win 5).blk t).view.emb j) k) := by
  obtain ⟨e00, e01, e10, e11, e20, e21, e30, e31, e40, e41, e50, e51⟩ := idx_facts t
  show V c main_v27 (((cfg0.win 3).blk t).view.emb (bWs j k)) = _
  refine congrArg (V c main_v27) (funext fun a => Fin.ext ?_)
  match a with
  | ⟨0, _⟩ =>
    show win0_3.index t (0 : Fin 2) * 512 + 1 * k.val = k.val
    omega
  | ⟨1, _⟩ =>
    show win0_3.index t (1 : Fin 2) * 512 + 1 * (j 1).val = ((((cfg0.win 5).blk t).view.emb j) 1).val
    have hout : ((((cfg0.win 5).blk t).view.emb j) 1).val = win0_5.index t (1 : Fin 2) * 512 + 1 * (j 1).val := rfl
    omega

theorem read_B (c : Dev nD) (t : Fin cfg0.N) (j : S1000x512.Idx) :
    iblk0 V c 4 t (bB j) = V c main_v28 (aB (((cfg0.win 5).blk t).view.emb j)) := by
  obtain ⟨e00, e01, e10, e11, e20, e21, e30, e31, e40, e41, e50, e51⟩ := idx_facts t
  show V c main_v28 (((cfg0.win 4).blk t).view.emb (bB j)) = _
  refine congrArg (V c main_v28) (funext fun a => Fin.ext ?_)
  match a with
  | ⟨0, _⟩ =>
    show win0_4.index t (0 : Fin 2) * 1 + 1 * 0 = 0
    omega
  | ⟨1, _⟩ =>
    show win0_4.index t (1 : Fin 2) * 512 + 1 * (j 1).val = ((((cfg0.win 5).blk t).view.emb j) 1).val
    have hout : ((((cfg0.win 5).blk t).view.emb j) 1).val = win0_5.index t (1 : Fin 2) * 512 + 1 * (j 1).val := rfl
    omega

/-- Entry j of point t's block of the combine step is entry (1000·t + j 0, j 1) of the layer on the whole arrays. -/
theorem block_eq (c : Dev nD) (t : Fin cfg0.N) (j : S1000x512.Idx) :
    blockVal (iblk0 V c 0 t) (iblk0 V c 1 t) (iblk0 V c 2 t) (iblk0 V c 3 t) (iblk0 V c 4 t) j = layer (V c main_v18) (V c main_v25) (V c main_arg0) (V c main_v27) (V c main_v28) (((cfg0.win 5).blk t).view.emb j) := by
  unfold blockVal layer
  refine congrArg (max · 0) ?_
  refine congrArg₂ (· + ·) (congrArg₂ (· + ·) (Finset.sum_congr rfl fun k _ => ?_) (Finset.sum_congr rfl fun k _ => ?_)) ?_
  · rw [read_U V c t j k, read_Wl V c t j k]
  · rw [read_H V c t j k, read_Ws V c t j k]
  · exact read_B V c t j

/-! ## Output window 5: the new node features -/

/-- What point t writes back is block t of the layer of the arrays the region finds. -/
theorem flushed5 (c : Dev nD) (t : Fin cfg0.N) :
    (dat0 V c).flushed 5 t = ((cfg0.win 5).blk t).view.read (Elt Ideal) (layer (V c main_v18) (V c main_v25) (V c main_arg0) (V c main_v27) (V c main_v28)) := by
  show (cfg0.win 5).cut (grid0.coords t) ((dat0 V c).after 5 t) = _
  rw [after0_5]
  unfold out0_5
  rw [View.canon_unit_zero hz]
  simp only [View.ld_unit_zero (S := S1000x3584) hz, View.ld_unit_zero (S := S1000x512) hz, View.ld_unit_zero (S := S3584x512) hz,
    View.ld_unit_zero (S := S512x512) hz, View.ld_unit_zero (S := S1x512) hz]
  funext j
  show k0_pay1 (iblk0 V c 0 t) (iblk0 V c 2 t) (iblk0 V c 1 t) (iblk0 V c 3 t) (iblk0 V c 4 t) j = layer (V c main_v18) (V c main_v25) (V c main_arg0) (V c main_v27) (V c main_v28) (((cfg0.win 5).blk t).view.emb j)
  exact (pay0_apply (iblk0 V c 0 t) (iblk0 V c 2 t) (iblk0 V c 1 t) (iblk0 V c 3 t) (iblk0 V c 4 t) j).trans (block_eq V c t j)

/-- An index of the output is in point t's block iff each coordinate is in the block's range on its axis. -/
theorem mem_blk5 (t : Fin cfg0.N) (i : S10000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v29).slice (win0_5.rect t)).set ↔ _
  rw [View.set_slice_whole, Rect.mem_set_unit]
  exact Iff.rfl

/-- Row n of the output lies in block n / 1000: the 10 blocks cover it. -/
theorem cover5 (i : S10000x512.Idx) : ∃ t : Fin cfg0.N, (cfg0.win 5).flush t = true ∧ i ∈ ((cfg0.win 5).blk t).view.set := by
  have hi0 : (i 0).val < 10000 := (i 0).isLt
  have hi1 : (i 1).val < 512 := (i 1).isLt
  have hN : (i 0).val / 1000 < 10 := by omega
  refine ⟨⟨(i 0).val / 1000, hN⟩, flush0_5 _, ?_⟩
  rw [mem_blk5]
  intro a
  obtain ⟨e00, e01, e10, e11, e20, e21, e30, e31, e40, e41, e50, e51⟩ := idx_facts ⟨(i 0).val / 1000, hN⟩
  match a with
  | ⟨0, _⟩ =>
    show win0_5.index ⟨(i 0).val / 1000, hN⟩ (0 : Fin 2) * 1000 ≤ (i 0).val ∧ (i 0).val < win0_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win0_5.index ⟨(i 0).val / 1000, hN⟩ (1 : Fin 2) * 512 ≤ (i 1).val ∧ (i 1).val < win0_5.index ⟨(i 0).val / 1000, hN⟩ (1 : Fin 2) * 512 + 512
    rw [e51]; omega

/-- The output array after the grid: the layer of the five arrays the region finds. -/
theorem final5 (c : Dev nD) : (dat0 V c).arrAt 5 cfg0.N = layer (V c main_v18) (V c main_v25) (V c main_arg0) (V c main_v27) (V c main_v28) :=
  (dat0 V c).arrAt_eq_of_cover 5 _ (fun t _ => flushed5 V c t) cover5

end Cert.KernelIdeal.Region0

end
-- ==== Proof.Region1.lean ====
/-
  Region 1 of the idealized kernel: what its output array holds when the grid has run, as a function of the five
  arrays the region finds, whatever they are.

  The grid has 10 points. Point t reads rows 1000·t … 1000·t + 999 of the aggregated messages and of the node features,
  reads the two weight matrices and the bias row whole, and writes rows 1000·t … 1000·t + 999 of the output. So what point t writes back is block t of `Layer.layer` of the five arrays, and the 10 blocks cover the output: the array ends equal to that function.
-/
import proofs.«108785_j781684048169_2_alg».proof.Proof.Gen.KernelIdeal.Frame
import proofs.«108785_j781684048169_2_alg».proof.Proof.Combine
import proofs.«108785_j781684048169_2_alg».proof.Proof.Layer

set_option maxRecDepth 16384

noncomputable section

namespace Cert.KernelIdeal.Region1

open Cert.KernelIdeal Cert.KernelIdeal.Gen Cert.KernelIdeal.Combine Cert.KernelIdeal.Layer
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block t, the resident ones at block 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-! ## Each input block read where the output block's entry says -/

theorem read_U (c : Dev nD) (t : Fin cfg1.N) (j : S1000x512.Idx) (k : Fin 3584) :
    iblk1 V c 0 t (bU j k) = V c main_v43 (aU (((cfg1.win 5).blk t).view.emb j) k) := by
  obtain ⟨e00, e01, e10, e11, e20, e21, e30, e31, e40, e41, e50, e51⟩ := idx_facts t
  show V c main_v43 (((cfg1.win 0).blk t).view.emb (bU j k)) = _
  refine congrArg (V c main_v43) (funext fun a => Fin.ext ?_)
  match a with
  | ⟨0, _⟩ =>
    show win1_0.index t (0 : Fin 2) * 1000 + 1 * (j 0).val = ((((cfg1.win 5).blk t).view.emb j) 0).val
    have hout : ((((cfg1.win 5).blk t).view.emb j) 0).val = win1_5.index t (0 : Fin 2) * 1000 + 1 * (j 0).val := rfl
    omega
  | ⟨1, _⟩ =>
    show win1_0.index t (1 : Fin 2) * 3584 + 1 * k.val = k.val
    omega

theorem read_Wl (c : Dev nD) (t : Fin cfg1.N) (j : S1000x512.Idx) (k : Fin 3584) :
    iblk1 V c 1 t (bWl j k) = V c main_v50 (aWl (((cfg1.win 5).blk t).view.emb j) k) := by
  obtain ⟨e00, e01, e10, e11, e20, e21, e30, e31, e40, e41, e50, e51⟩ := idx_facts t
  show V c main_v50 (((cfg1.win 1).blk t).view.emb (bWl j k)) = _
  refine congrArg (V c main_v50) (funext fun a => Fin.ext ?_)
  match a with
  | ⟨0, _⟩ =>
    show win1_1.index t (0 : Fin 2) * 3584 + 1 * k.val = k.val
    omega
  | ⟨1, _⟩ =>
    show win1_1.index t (1 : Fin 2) * 512 + 1 * (j 1).val = ((((cfg1.win 5).blk t).view.emb j) 1).val
    have hout : ((((cfg1.win 5).blk t).view.emb j) 1).val = win1_5.index t (1 : Fin 2) * 512 + 1 * (j 1).val := rfl
    omega

theorem read_H (c : Dev nD) (t : Fin cfg1.N) (j : S1000x512.Idx) (k : Fin 512) :
    iblk1 V c 2 t (bH j k) = V c main_v29 (aH (((cfg1.win 5).blk t).view.emb j) k) := by
  obtain ⟨e00, e01, e10, e11, e20, e21, e30, e31, e40, e41, e50, e51⟩ := idx_facts t
  show V c main_v29 (((cfg1.win 2).blk t).view.emb (bH j k)) = _
  refine congrArg (V c main_v29) (funext fun a => Fin.ext ?_)
  match a with
  | ⟨0, _⟩ =>
    show win1_2.index t (0 : Fin 2) * 1000 + 1 * (j 0).val = ((((cfg1.win 5).blk t).view.emb j) 0).val
    have hout : ((((cfg1.win 5).blk t).view.emb j) 0).val = win1_5.index t (0 : Fin 2) * 1000 + 1 * (j 0).val := rfl
    omega
  | ⟨1, _⟩ =>
    show win1_2.index t (1 : Fin 2) * 512 + 1 * k.val = k.val
    omega

theorem read_Ws (c : Dev nD) (t : Fin cfg1.N) (j : S1000x512.Idx) (k : Fin 512) :
    iblk1 V c 3 t (bWs j k) = V c main_v52 (aWs (((cfg1.win 5).blk t).view.emb j) k) := by
  obtain ⟨e00, e01, e10, e11, e20, e21, e30, e31, e40, e41, e50, e51⟩ := idx_facts t
  show V c main_v52 (((cfg1.win 3).blk t).view.emb (bWs j k)) = _
  refine congrArg (V c main_v52) (funext fun a => Fin.ext ?_)
  match a with
  | ⟨0, _⟩ =>
    show win1_3.index t (0 : Fin 2) * 512 + 1 * k.val = k.val
    omega
  | ⟨1, _⟩ =>
    show win1_3.index t (1 : Fin 2) * 512 + 1 * (j 1).val = ((((cfg1.win 5).blk t).view.emb j) 1).val
    have hout : ((((cfg1.win 5).blk t).view.emb j) 1).val = win1_5.index t (1 : Fin 2) * 512 + 1 * (j 1).val := rfl
    omega

theorem read_B (c : Dev nD) (t : Fin cfg1.N) (j : S1000x512.Idx) :
    iblk1 V c 4 t (bB j) = V c main_v53 (aB (((cfg1.win 5).blk t).view.emb j)) := by
  obtain ⟨e00, e01, e10, e11, e20, e21, e30, e31, e40, e41, e50, e51⟩ := idx_facts t
  show V c main_v53 (((cfg1.win 4).blk t).view.emb (bB j)) = _
  refine congrArg (V c main_v53) (funext fun a => Fin.ext ?_)
  match a with
  | ⟨0, _⟩ =>
    show win1_4.index t (0 : Fin 2) * 1 + 1 * 0 = 0
    omega
  | ⟨1, _⟩ =>
    show win1_4.index t (1 : Fin 2) * 512 + 1 * (j 1).val = ((((cfg1.win 5).blk t).view.emb j) 1).val
    have hout : ((((cfg1.win 5).blk t).view.emb j) 1).val = win1_5.index t (1 : Fin 2) * 512 + 1 * (j 1).val := rfl
    omega

/-- Entry j of point t's block of the combine step is entry (1000·t + j 0, j 1) of the layer on the whole arrays. -/
theorem block_eq (c : Dev nD) (t : Fin cfg1.N) (j : S1000x512.Idx) :
    blockVal (iblk1 V c 0 t) (iblk1 V c 1 t) (iblk1 V c 2 t) (iblk1 V c 3 t) (iblk1 V c 4 t) j = layer (V c main_v43) (V c main_v50) (V c main_v29) (V c main_v52) (V c main_v53) (((cfg1.win 5).blk t).view.emb j) := by
  unfold blockVal layer
  refine congrArg (max · 0) ?_
  refine congrArg₂ (· + ·) (congrArg₂ (· + ·) (Finset.sum_congr rfl fun k _ => ?_) (Finset.sum_congr rfl fun k _ => ?_)) ?_
  · rw [read_U V c t j k, read_Wl V c t j k]
  · rw [read_H V c t j k, read_Ws V c t j k]
  · exact read_B V c t j

/-! ## Output window 5: the new node features -/

/-- What point t writes back is block t of the layer of the arrays the region finds. -/
theorem flushed5 (c : Dev nD) (t : Fin cfg1.N) :
    (dat1 V c).flushed 5 t = ((cfg1.win 5).blk t).view.read (Elt Ideal) (layer (V c main_v43) (V c main_v50) (V c main_v29) (V c main_v52) (V c main_v53)) := by
  show (cfg1.win 5).cut (grid1.coords t) ((dat1 V c).after 5 t) = _
  rw [after1_5]
  unfold out1_5
  rw [View.canon_unit_zero hz]
  simp only [View.ld_unit_zero (S := S1000x3584) hz, View.ld_unit_zero (S := S1000x512) hz, View.ld_unit_zero (S := S3584x512) hz,
    View.ld_unit_zero (S := S512x512) hz, View.ld_unit_zero (S := S1x512) hz]
  funext j
  show k1_pay1 (iblk1 V c 0 t) (iblk1 V c 2 t) (iblk1 V c 1 t) (iblk1 V c 3 t) (iblk1 V c 4 t) j = layer (V c main_v43) (V c main_v50) (V c main_v29) (V c main_v52) (V c main_v53) (((cfg1.win 5).blk t).view.emb j)
  exact (pay1_apply (iblk1 V c 0 t) (iblk1 V c 2 t) (iblk1 V c 1 t) (iblk1 V c 3 t) (iblk1 V c 4 t) j).trans (block_eq V c t j)

/-- An index of the output is in point t's block iff each coordinate is in the block's range on its axis. -/
theorem mem_blk5 (t : Fin cfg1.N) (i : S10000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v54).slice (win1_5.rect t)).set ↔ _
  rw [View.set_slice_whole, Rect.mem_set_unit]
  exact Iff.rfl

/-- Row n of the output lies in block n / 1000: the 10 blocks cover it. -/
theorem cover5 (i : S10000x512.Idx) : ∃ t : Fin cfg1.N, (cfg1.win 5).flush t = true ∧ i ∈ ((cfg1.win 5).blk t).view.set := by
  have hi0 : (i 0).val < 10000 := (i 0).isLt
  have hi1 : (i 1).val < 512 := (i 1).isLt
  have hN : (i 0).val / 1000 < 10 := by omega
  refine ⟨⟨(i 0).val / 1000, hN⟩, flush1_5 _, ?_⟩
  rw [mem_blk5]
  intro a
  obtain ⟨e00, e01, e10, e11, e20, e21, e30, e31, e40, e41, e50, e51⟩ := idx_facts ⟨(i 0).val / 1000, hN⟩
  match a with
  | ⟨0, _⟩ =>
    show win1_5.index ⟨(i 0).val / 1000, hN⟩ (0 : Fin 2) * 1000 ≤ (i 0).val ∧ (i 0).val < win1_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win1_5.index ⟨(i 0).val / 1000, hN⟩ (1 : Fin 2) * 512 ≤ (i 1).val ∧ (i 1).val < win1_5.index ⟨(i 0).val / 1000, hN⟩ (1 : Fin 2) * 512 + 512
    rw [e51]; omega

/-- The output array after the grid: the layer of the five arrays the region finds. -/
theorem final5 (c : Dev nD) : (dat1 V c).arrAt 5 cfg1.N = layer (V c main_v43) (V c main_v50) (V c main_v29) (V c main_v52) (V c main_v53) :=
  (dat1 V c).arrAt_eq_of_cover 5 _ (fun t _ => flushed5 V c t) cover5

end Cert.KernelIdeal.Region1

end
-- ==== Proof.Region2.lean ====
/-
  Region 2 of the idealized kernel: what its output arrays hold when the grid has run, as a function of the five
  arrays the region finds, whatever they are.

  The grid has 10 points. Point t reads rows 1000·t … 1000·t + 999 of the aggregated messages and of the node features,
  reads the two weight matrices and the bias row whole, and writes rows 1000·t … 1000·t + 999 of the output (and rows
  8·t … 8·t + 7 of the array of per-block column sums). So what point t writes back is block t of `Layer.layer` of the five arrays (of
  `Layer.tileSums` of it), and the 10 blocks cover the output: the array ends equal to that function.
-/
import proofs.«108785_j781684048169_2_alg».proof.Proof.Gen.KernelIdeal.Frame
import proofs.«108785_j781684048169_2_alg».proof.Proof.Combine
import proofs.«108785_j781684048169_2_alg».proof.Proof.Layer

set_option maxRecDepth 16384

noncomputable section

namespace Cert.KernelIdeal.Region2

open Cert.KernelIdeal Cert.KernelIdeal.Gen Cert.KernelIdeal.Combine Cert.KernelIdeal.Layer
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block t, the resident ones at block 0. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = t.val
    ∧ win2_6.index t (1 : Fin 2) = 0 :=
  (by decide +kernel : ∀ t : Fin grid2.N, _)

/-! ## Each input block read where the output block's entry says -/

theorem read_U (c : Dev nD) (t : Fin cfg2.N) (j : S1000x512.Idx) (k : Fin 3584) :
    iblk2 V c 0 t (bU j k) = V c main_v68 (aU (((cfg2.win 5).blk t).view.emb j) k) := by
  obtain ⟨e00, e01, e10, e11, e20, e21, e30, e31, e40, e41, e50, e51, e60, e61⟩ := idx_facts t
  show V c main_v68 (((cfg2.win 0).blk t).view.emb (bU j k)) = _
  refine congrArg (V c main_v68) (funext fun a => Fin.ext ?_)
  match a with
  | ⟨0, _⟩ =>
    show win2_0.index t (0 : Fin 2) * 1000 + 1 * (j 0).val = ((((cfg2.win 5).blk t).view.emb j) 0).val
    have hout : ((((cfg2.win 5).blk t).view.emb j) 0).val = win2_5.index t (0 : Fin 2) * 1000 + 1 * (j 0).val := rfl
    omega
  | ⟨1, _⟩ =>
    show win2_0.index t (1 : Fin 2) * 3584 + 1 * k.val = k.val
    omega

theorem read_Wl (c : Dev nD) (t : Fin cfg2.N) (j : S1000x512.Idx) (k : Fin 3584) :
    iblk2 V c 1 t (bWl j k) = V c main_v75 (aWl (((cfg2.win 5).blk t).view.emb j) k) := by
  obtain ⟨e00, e01, e10, e11, e20, e21, e30, e31, e40, e41, e50, e51, e60, e61⟩ := idx_facts t
  show V c main_v75 (((cfg2.win 1).blk t).view.emb (bWl j k)) = _
  refine congrArg (V c main_v75) (funext fun a => Fin.ext ?_)
  match a with
  | ⟨0, _⟩ =>
    show win2_1.index t (0 : Fin 2) * 3584 + 1 * k.val = k.val
    omega
  | ⟨1, _⟩ =>
    show win2_1.index t (1 : Fin 2) * 512 + 1 * (j 1).val = ((((cfg2.win 5).blk t).view.emb j) 1).val
    have hout : ((((cfg2.win 5).blk t).view.emb j) 1).val = win2_5.index t (1 : Fin 2) * 512 + 1 * (j 1).val := rfl
    omega

theorem read_H (c : Dev nD) (t : Fin cfg2.N) (j : S1000x512.Idx) (k : Fin 512) :
    iblk2 V c 2 t (bH j k) = V c main_v54 (aH (((cfg2.win 5).blk t).view.emb j) k) := by
  obtain ⟨e00, e01, e10, e11, e20, e21, e30, e31, e40, e41, e50, e51, e60, e61⟩ := idx_facts t
  show V c main_v54 (((cfg2.win 2).blk t).view.emb (bH j k)) = _
  refine congrArg (V c main_v54) (funext fun a => Fin.ext ?_)
  match a with
  | ⟨0, _⟩ =>
    show win2_2.index t (0 : Fin 2) * 1000 + 1 * (j 0).val = ((((cfg2.win 5).blk t).view.emb j) 0).val
    have hout : ((((cfg2.win 5).blk t).view.emb j) 0).val = win2_5.index t (0 : Fin 2) * 1000 + 1 * (j 0).val := rfl
    omega
  | ⟨1, _⟩ =>
    show win2_2.index t (1 : Fin 2) * 512 + 1 * k.val = k.val
    omega

theorem read_Ws (c : Dev nD) (t : Fin cfg2.N) (j : S1000x512.Idx) (k : Fin 512) :
    iblk2 V c 3 t (bWs j k) = V c main_v77 (aWs (((cfg2.win 5).blk t).view.emb j) k) := by
  obtain ⟨e00, e01, e10, e11, e20, e21, e30, e31, e40, e41, e50, e51, e60, e61⟩ := idx_facts t
  show V c main_v77 (((cfg2.win 3).blk t).view.emb (bWs j k)) = _
  refine congrArg (V c main_v77) (funext fun a => Fin.ext ?_)
  match a with
  | ⟨0, _⟩ =>
    show win2_3.index t (0 : Fin 2) * 512 + 1 * k.val = k.val
    omega
  | ⟨1, _⟩ =>
    show win2_3.index t (1 : Fin 2) * 512 + 1 * (j 1).val = ((((cfg2.win 5).blk t).view.emb j) 1).val
    have hout : ((((cfg2.win 5).blk t).view.emb j) 1).val = win2_5.index t (1 : Fin 2) * 512 + 1 * (j 1).val := rfl
    omega

theorem read_B (c : Dev nD) (t : Fin cfg2.N) (j : S1000x512.Idx) :
    iblk2 V c 4 t (bB j) = V c main_v78 (aB (((cfg2.win 5).blk t).view.emb j)) := by
  obtain ⟨e00, e01, e10, e11, e20, e21, e30, e31, e40, e41, e50, e51, e60, e61⟩ := idx_facts t
  show V c main_v78 (((cfg2.win 4).blk t).view.emb (bB j)) = _
  refine congrArg (V c main_v78) (funext fun a => Fin.ext ?_)
  match a with
  | ⟨0, _⟩ =>
    show win2_4.index t (0 : Fin 2) * 1 + 1 * 0 = 0
    omega
  | ⟨1, _⟩ =>
    show win2_4.index t (1 : Fin 2) * 512 + 1 * (j 1).val = ((((cfg2.win 5).blk t).view.emb j) 1).val
    have hout : ((((cfg2.win 5).blk t).view.emb j) 1).val = win2_5.index t (1 : Fin 2) * 512 + 1 * (j 1).val := rfl
    omega

/-- Entry j of point t's block of the combine step is entry (1000·t + j 0, j 1) of the layer on the whole arrays. -/
theorem block_eq (c : Dev nD) (t : Fin cfg2.N) (j : S1000x512.Idx) :
    blockVal (iblk2 V c 0 t) (iblk2 V c 1 t) (iblk2 V c 2 t) (iblk2 V c 3 t) (iblk2 V c 4 t) j = layer (V c main_v68) (V c main_v75) (V c main_v54) (V c main_v77) (V c main_v78) (((cfg2.win 5).blk t).view.emb j) := by
  unfold blockVal layer
  refine congrArg (max · 0) ?_
  refine congrArg₂ (· + ·) (congrArg₂ (· + ·) (Finset.sum_congr rfl fun k _ => ?_) (Finset.sum_congr rfl fun k _ => ?_)) ?_
  · rw [read_U V c t j k, read_Wl V c t j k]
  · rw [read_H V c t j k, read_Ws V c t j k]
  · exact read_B V c t j

/-! ## Output window 5: the new node features -/

/-- What point t writes back is block t of the layer of the arrays the region finds. -/
theorem flushed5 (c : Dev nD) (t : Fin cfg2.N) :
    (dat2 V c).flushed 5 t = ((cfg2.win 5).blk t).view.read (Elt Ideal) (layer (V c main_v68) (V c main_v75) (V c main_v54) (V c main_v77) (V c main_v78)) := by
  show (cfg2.win 5).cut (grid2.coords t) ((dat2 V c).after 5 t) = _
  rw [after2_5]
  unfold out2_5
  rw [View.canon_unit_zero hz]
  simp only [View.ld_unit_zero (S := S1000x3584) hz, View.ld_unit_zero (S := S1000x512) hz, View.ld_unit_zero (S := S3584x512) hz,
    View.ld_unit_zero (S := S512x512) hz, View.ld_unit_zero (S := S1x512) hz]
  funext j
  show k2_pay1 (iblk2 V c 0 t) (iblk2 V c 2 t) (iblk2 V c 1 t) (iblk2 V c 3 t) (iblk2 V c 4 t) j = layer (V c main_v68) (V c main_v75) (V c main_v54) (V c main_v77) (V c main_v78) (((cfg2.win 5).blk t).view.emb j)
  exact (pay2_apply (iblk2 V c 0 t) (iblk2 V c 2 t) (iblk2 V c 1 t) (iblk2 V c 3 t) (iblk2 V c 4 t) j).trans (block_eq V c t j)

/-- An index of the output is in point t's block iff each coordinate is in the block's range on its axis. -/
theorem mem_blk5 (t : Fin cfg2.N) (i : S10000x512.Idx) :
    i ∈ ((cfg2.win 5).blk t).view.set ↔ ∀ a : Fin 2, win2_5.index t a * S1000x512.size a ≤ (i a).val ∧ (i a).val < win2_5.index t a * S1000x512.size a + S1000x512.size a := by
  show i ∈ ((View.whole main_v79_0).slice (win2_5.rect t)).set ↔ _
  rw [View.set_slice_whole, Rect.mem_set_unit]
  exact Iff.rfl

/-- Row n of the output lies in block n / 1000: the 10 blocks cover it. -/
theorem cover5 (i : S10000x512.Idx) : ∃ t : Fin cfg2.N, (cfg2.win 5).flush t = true ∧ i ∈ ((cfg2.win 5).blk t).view.set := by
  have hi0 : (i 0).val < 10000 := (i 0).isLt
  have hi1 : (i 1).val < 512 := (i 1).isLt
  have hN : (i 0).val / 1000 < 10 := by omega
  refine ⟨⟨(i 0).val / 1000, hN⟩, flush2_5 _, ?_⟩
  rw [mem_blk5]
  intro a
  obtain ⟨e00, e01, e10, e11, e20, e21, e30, e31, e40, e41, e50, e51, e60, e61⟩ := idx_facts ⟨(i 0).val / 1000, hN⟩
  match a with
  | ⟨0, _⟩ =>
    show win2_5.index ⟨(i 0).val / 1000, hN⟩ (0 : Fin 2) * 1000 ≤ (i 0).val ∧ (i 0).val < win2_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win2_5.index ⟨(i 0).val / 1000, hN⟩ (1 : Fin 2) * 512 ≤ (i 1).val ∧ (i 1).val < win2_5.index ⟨(i 0).val / 1000, hN⟩ (1 : Fin 2) * 512 + 512
    rw [e51]; omega

/-- The output array after the grid: the layer of the five arrays the region finds. -/
theorem final5 (c : Dev nD) : (dat2 V c).arrAt 5 cfg2.N = layer (V c main_v68) (V c main_v75) (V c main_v54) (V c main_v77) (V c main_v78) :=
  (dat2 V c).arrAt_eq_of_cover 5 _ (fun t _ => flushed5 V c t) cover5

/-! ## Output window 6: the per-block column sums -/

/-- What point t writes back to the sums array is block t of `tileSums` of the layer: each of its 8 rows is the column
    sums of block t of the layer. -/
theorem flushed6 (c : Dev nD) (t : Fin cfg2.N) :
    (dat2 V c).flushed 6 t = ((cfg2.win 6).blk t).view.read (Elt Ideal) (tileSums (layer (V c main_v68) (V c main_v75) (V c main_v54) (V c main_v77) (V c main_v78))) := by
  show (cfg2.win 6).cut (grid2.coords t) ((dat2 V c).after 6 t) = _
  rw [after2_6]
  unfold out2_6
  rw [View.canon_unit_zero hz]
  simp only [View.ld_unit_zero (S := S1000x3584) hz, View.ld_unit_zero (S := S1000x512) hz, View.ld_unit_zero (S := S3584x512) hz,
    View.ld_unit_zero (S := S512x512) hz, View.ld_unit_zero (S := S1x512) hz]
  funext y
  show k2_pay2 (iblk2 V c 0 t) (iblk2 V c 2 t) (iblk2 V c 1 t) (iblk2 V c 3 t) (iblk2 V c 4 t) y = tileSums (layer (V c main_v68) (V c main_v75) (V c main_v54) (V c main_v77) (V c main_v78)) (((cfg2.win 6).blk t).view.emb y)
  refine (pay2sum_apply (iblk2 V c 0 t) (iblk2 V c 2 t) (iblk2 V c 1 t) (iblk2 V c 3 t) (iblk2 V c 4 t) y).trans ?_
  unfold tileSums
  refine Finset.sum_congr rfl fun r _ => ?_
  refine (block_eq V c t (bRow y r)).trans (congrArg (layer (V c main_v68) (V c main_v75) (V c main_v54) (V c main_v77) (V c main_v78)) (funext fun a => Fin.ext ?_))
  obtain ⟨e00, e01, e10, e11, e20, e21, e30, e31, e40, e41, e50, e51, e60, e61⟩ := idx_facts t
  match a with
  | ⟨0, _⟩ =>
    show win2_5.index t (0 : Fin 2) * 1000 + 1 * r.val = 1000 * ((win2_6.index t (0 : Fin 2) * 8 + 1 * (y 0).val) / 8) + r.val
    have hy : (y 0).val < 8 := (y 0).isLt
    omega
  | ⟨1, _⟩ =>
    show win2_5.index t (1 : Fin 2) * 512 + 1 * (y 1).val = win2_6.index t (1 : Fin 2) * 512 + 1 * (y 1).val
    omega

theorem mem_blk6 (t : Fin cfg2.N) (i : S80x512.Idx) :
    i ∈ ((cfg2.win 6).blk t).view.set ↔ ∀ a : Fin 2, win2_6.index t a * S8x512.size a ≤ (i a).val ∧ (i a).val < win2_6.index t a * S8x512.size a + S8x512.size a := by
  show i ∈ ((View.whole main_v79_1).slice (win2_6.rect t)).set ↔ _
  rw [View.set_slice_whole, Rect.mem_set_unit]
  exact Iff.rfl

/-- Row n of the sums array lies in block n / 8: the 10 blocks cover it. -/
theorem cover6 (i : S80x512.Idx) : ∃ t : Fin cfg2.N, (cfg2.win 6).flush t = true ∧ i ∈ ((cfg2.win 6).blk t).view.set := by
  have hi0 : (i 0).val < 80 := (i 0).isLt
  have hi1 : (i 1).val < 512 := (i 1).isLt
  have hN : (i 0).val / 8 < 10 := by omega
  refine ⟨⟨(i 0).val / 8, hN⟩, flush2_6 _, ?_⟩
  rw [mem_blk6]
  intro a
  obtain ⟨e00, e01, e10, e11, e20, e21, e30, e31, e40, e41, e50, e51, e60, e61⟩ := idx_facts ⟨(i 0).val / 8, hN⟩
  match a with
  | ⟨0, _⟩ =>
    show win2_6.index ⟨(i 0).val / 8, hN⟩ (0 : Fin 2) * 8 ≤ (i 0).val ∧ (i 0).val < win2_6.index ⟨(i 0).val / 8, hN⟩ (0 : Fin 2) * 8 + 8
    rw [e60]; show (i 0).val / 8 * 8 ≤ (i 0).val ∧ (i 0).val < (i 0).val / 8 * 8 + 8; omega
  | ⟨1, _⟩ =>
    show win2_6.index ⟨(i 0).val / 8, hN⟩ (1 : Fin 2) * 512 ≤ (i 1).val ∧ (i 1).val < win2_6.index ⟨(i 0).val / 8, hN⟩ (1 : Fin 2) * 512 + 512
    rw [e61]; omega

/-- The sums array after the grid: the per-block column sums of the layer of the five arrays the region finds. -/
theorem final6 (c : Dev nD) : (dat2 V c).arrAt 6 cfg2.N = tileSums (layer (V c main_v68) (V c main_v75) (V c main_v54) (V c main_v77) (V c main_v78)) :=
  (dat2 V c).arrAt_eq_of_cover 6 _ (fun t _ => flushed6 V c t) cover6

end Cert.KernelIdeal.Region2

end
-- ==== Proof.KernelRun.lean ====
/-
  The idealized kernel's run, with its two result buffers named.

  @main is seven segments: a stretch of host operations, a kernel region, and so on, ending in a stretch of host
  operations. The contents of every buffer at each boundary are a fold from the launch memory: after a host stretch
  the operations' results over the previous contents, after a region its arrays at what the grid's write-backs leave
  and every other buffer untouched. The launch theorem for such a chain of segments ends every weakly fair execution
  in a state whose unscoped buffers hold the last boundary's contents. Read at the two result buffers (the readout
  vector and the last layer's node features) and at the nine argument arrays (which no segment writes), that is the
  statement below: the results are the last boundary's contents at their buffers, the arguments are as launched.
-/
import proofs.«108785_j781684048169_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the readout buffer and the
    node-feature buffer end at the last boundary's contents, and the argument arrays end as launched. -/
theorem run_results : θ_run defs (onTc (τ := τ) (main (F := F))) ⟨m, fun _ => 0, ρ⟩ (fun r => ∀ c : Dev nD,
      r.2.mem ((c.tc : Thread nD τ).loc main_v82) = W7 m ρ c (Proc.devRef .tc main_v82)
      ∧ r.2.mem ((c.tc : Thread nD τ).loc main_v79_0) = W7 m ρ c (Proc.devRef .tc main_v79_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v82 (by decide)),
       h c _ (mem_uc main_v79_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.Fold.lean ====
/-
  The contents of the buffers at each boundary of the idealized kernel's @main, as functions of the nine arguments.

  The boundaries' contents are a fold from the launch memory. Walking a buffer back through the fold: a host stretch
  either computes it (then it is the operations' term over the previous boundary's contents) or leaves it alone; a region
  leaves every buffer alone except its output arrays, which end at the layer (and, for the last region, the per-block
  column sums of the layer) of the five arrays the region found. So by induction along @main: after region k the
  node-feature buffer holds `feat(k+1)` of the arguments, the buffers the later stretches read (edge weights, indices,
  segments, biases, cast weights) still hold what the first stretch or the launch put there, and at the end the two
  result buffers hold `graphFeat` and `feat3` of the arguments.
-/
import proofs.«108785_j781684048169_2_alg».proof.Proof.Gen.KernelIdeal.Frame
import proofs.«108785_j781684048169_2_alg».proof.Proof.HostTerms
import proofs.«108785_j781684048169_2_alg».proof.Proof.Region0
import proofs.«108785_j781684048169_2_alg».proof.Proof.Region1
import proofs.«108785_j781684048169_2_alg».proof.Proof.Region2
import proofs.«108785_j781684048169_2_alg».proof.Proof.KernelRun
import Idealize.ShloMosaic.Lib.StableHlo.Run

set_option maxRecDepth 16384

noncomputable section

namespace Cert.KernelIdeal.Fold

open Cert.KernelIdeal Cert.KernelIdeal.Gen Cert.KernelIdeal.Layer Cert.KernelIdeal.HostTerms
open Idealize.ShloMosaic Idealize.ShloMosaic.TcCoe Idealize.SL.Sem Idealize.ShloMosaic.StableHlo

variable (m : (ℓ : Loc nD τ sig) → Buf (Elt Ideal) ℓ) (ρ : Dev nD → PrngReg)

/-- The nine argument arrays of core `c` at launch. -/
def argsOf (c : Dev nD) : Args where
  x := m ((c : Thread nD τ).loc main_arg0)
  ew := m ((c : Thread nD τ).loc main_arg1)
  wlin := m ((c : Thread nD τ).loc main_arg2)
  blin := m ((c : Thread nD τ).loc main_arg3)
  wself := m ((c : Thread nD τ).loc main_arg4)
  bself := m ((c : Thread nD τ).loc main_arg5)
  nodeIn := m ((c : Thread nD τ).loc main_arg6)
  nodeOut := m ((c : Thread nD τ).loc main_arg7)
  rel := m ((c : Thread nD τ).loc main_arg8)

/-! ## After the first host stretch (region 0's entry) -/

set_option maxHeartbeats 8000000 in
/-- The aggregated messages of the input features. -/
theorem W1_v18 (c : Dev nD) : W1 m ρ c (Proc.devRef .tc main_v18) = aggregate (argsOf m c).x (argsOf m c).ew (argsOf m c).nodeIn (segIds (argsOf m c).nodeOut (argsOf m c).rel) := by
  show StableHlo.after hostOps0 (W0 m ρ c) (Proc.devRef .tc main_v18) = _
  after_results_simp
  rfl
set_option maxHeartbeats 8000000 in
theorem W1_v25 (c : Dev nD) : W1 m ρ c (Proc.devRef .tc main_v25) = wl0 (wlinCast (argsOf m c).wlin) := by
  show StableHlo.after hostOps0 (W0 m ρ c) (Proc.devRef .tc main_v25) = _
  after_results_simp
  rfl
set_option maxHeartbeats 8000000 in
theorem W1_v27 (c : Dev nD) : W1 m ρ c (Proc.devRef .tc main_v27) = ws0 (wselfCast (argsOf m c).wself) := by
  show StableHlo.after hostOps0 (W0 m ρ c) (Proc.devRef .tc main_v27) = _
  after_results_simp
  rfl
set_option maxHeartbeats 8000000 in
theorem W1_v28 (c : Dev nD) : W1 m ρ c (Proc.devRef .tc main_v28) = bias0 (argsOf m c).blin (argsOf m c).bself := by
  show StableHlo.after hostOps0 (W0 m ρ c) (Proc.devRef .tc main_v28) = _
  after_results_simp
  rfl
set_option maxHeartbeats 8000000 in
theorem W1_arg0 (c : Dev nD) : W1 m ρ c (Proc.devRef .tc main_arg0) = (argsOf m c).x := by
  show StableHlo.after hostOps0 (W0 m ρ c) (Proc.devRef .tc main_arg0) = _
  after_results_simp
  rfl
set_option maxHeartbeats 8000000 in
theorem W1_arg1 (c : Dev nD) : W1 m ρ c (Proc.devRef .tc main_arg1) = (argsOf m c).ew := by
  show StableHlo.after hostOps0 (W0 m ρ c) (Proc.devRef .tc main_arg1) = _
  after_results_simp
  rfl
set_option maxHeartbeats 8000000 in
theorem W1_arg6 (c : Dev nD) : W1 m ρ c (Proc.devRef .tc main_arg6) = (argsOf m c).nodeIn := by
  show StableHlo.after hostOps0 (W0 m ρ c) (Proc.devRef .tc main_arg6) = _
  after_results_simp
  rfl
set_option maxHeartbeats 8000000 in
theorem W1_v4 (c : Dev nD) : W1 m ρ c (Proc.devRef .tc main_v4) = segIds (argsOf m c).nodeOut (argsOf m c).rel := by
  show StableHlo.after hostOps0 (W0 m ρ c) (Proc.devRef .tc main_v4) = _
  after_results_simp
  rfl
set_option maxHeartbeats 8000000 in
theorem W1_arg3 (c : Dev nD) : W1 m ρ c (Proc.devRef .tc main_arg3) = (argsOf m c).blin := by
  show StableHlo.after hostOps0 (W0 m ρ c) (Proc.devRef .tc main_arg3) = _
  after_results_simp
  rfl
set_option maxHeartbeats 8000000 in
theorem W1_arg5 (c : Dev nD) : W1 m ρ c (Proc.devRef .tc main_arg5) = (argsOf m c).bself := by
  show StableHlo.after hostOps0 (W0 m ρ c) (Proc.devRef .tc main_arg5) = _
  after_results_simp
  rfl
set_option maxHeartbeats 8000000 in
theorem W1_v0 (c : Dev nD) : W1 m ρ c (Proc.devRef .tc main_v0) = wlinCast (argsOf m c).wlin := by
  show StableHlo.after hostOps0 (W0 m ρ c) (Proc.devRef .tc main_v0) = _
  after_results_simp
  rfl
set_option maxHeartbeats 8000000 in
theorem W1_v1 (c : Dev nD) : W1 m ρ c (Proc.devRef .tc main_v1) = wselfCast (argsOf m c).wself := by
  show StableHlo.after hostOps0 (W0 m ρ c) (Proc.devRef .tc main_v1) = _
  after_results_simp
  rfl

/-! ## After region 0 -/

/-- Region 0 leaves the node features after layer 1. -/
theorem W2_v29 (c : Dev nD) : W2 m ρ c (Proc.devRef .tc main_v29) = feat1 (argsOf m c) := by
  refine (W2_arr m ρ c 5).trans ((Region0.final5 (V1 m ρ) c).trans ?_)
  show layer (W1 m ρ c (Proc.devRef .tc main_v18)) (W1 m ρ c (Proc.devRef .tc main_v25)) (W1 m ρ c (Proc.devRef .tc main_arg0)) (W1 m ρ c (Proc.devRef .tc main_v27)) (W1 m ρ c (Proc.devRef .tc main_v28)) = _
  rw [W1_v18 m ρ c, W1_v25 m ρ c, W1_arg0 m ρ c, W1_v27 m ρ c, W1_v28 m ρ c]
  rfl
theorem W2_arg1 (c : Dev nD) : W2 m ρ c (Proc.devRef .tc main_arg1) = (argsOf m c).ew :=
  (W2_of_ne m ρ c main_arg1 (by decide)).trans (W1_arg1 m ρ c)
theorem W2_arg6 (c : Dev nD) : W2 m ρ c (Proc.devRef .tc main_arg6) = (argsOf m c).nodeIn :=
  (W2_of_ne m ρ c main_arg6 (by decide)).trans (W1_arg6 m ρ c)
theorem W2_v4 (c : Dev nD) : W2 m ρ c (Proc.devRef .tc main_v4) = segIds (argsOf m c).nodeOut (argsOf m c).rel :=
  (W2_of_ne m ρ c main_v4 (by decide)).trans (W1_v4 m ρ c)
theorem W2_arg3 (c : Dev nD) : W2 m ρ c (Proc.devRef .tc main_arg3) = (argsOf m c).blin :=
  (W2_of_ne m ρ c main_arg3 (by decide)).trans (W1_arg3 m ρ c)
theorem W2_arg5 (c : Dev nD) : W2 m ρ c (Proc.devRef .tc main_arg5) = (argsOf m c).bself :=
  (W2_of_ne m ρ c main_arg5 (by decide)).trans (W1_arg5 m ρ c)
theorem W2_v0 (c : Dev nD) : W2 m ρ c (Proc.devRef .tc main_v0) = wlinCast (argsOf m c).wlin :=
  (W2_of_ne m ρ c main_v0 (by decide)).trans (W1_v0 m ρ c)
theorem W2_v1 (c : Dev nD) : W2 m ρ c (Proc.devRef .tc main_v1) = wselfCast (argsOf m c).wself :=
  (W2_of_ne m ρ c main_v1 (by decide)).trans (W1_v1 m ρ c)

/-! ## After the second host stretch (region 1's entry) -/

set_option maxHeartbeats 8000000 in
/-- The aggregated messages of the features after layer 1. -/
theorem W3_v43 (c : Dev nD) : W3 m ρ c (Proc.devRef .tc main_v43) = aggregate (feat1 (argsOf m c)) (argsOf m c).ew (argsOf m c).nodeIn (segIds (argsOf m c).nodeOut (argsOf m c).rel) := by
  show StableHlo.after hostOps1 (W2 m ρ c) (Proc.devRef .tc main_v43) = _
  after_results_simp
  rw [W2_v29 m ρ c, W2_arg1 m ρ c, W2_arg6 m ρ c, W2_v4 m ρ c]
  rfl
set_option maxHeartbeats 8000000 in
theorem W3_v50 (c : Dev nD) : W3 m ρ c (Proc.devRef .tc main_v50) = wl1 (wlinCast (argsOf m c).wlin) := by
  show StableHlo.after hostOps1 (W2 m ρ c) (Proc.devRef .tc main_v50) = _
  after_results_simp
  rw [W2_v0 m ρ c]
  rfl
set_option maxHeartbeats 8000000 in
theorem W3_v52 (c : Dev nD) : W3 m ρ c (Proc.devRef .tc main_v52) = ws1 (wselfCast (argsOf m c).wself) := by
  show StableHlo.after hostOps1 (W2 m ρ c) (Proc.devRef .tc main_v52) = _
  after_results_simp
  rw [W2_v1 m ρ c]
  rfl
set_option maxHeartbeats 8000000 in
theorem W3_v53 (c : Dev nD) : W3 m ρ c (Proc.devRef .tc main_v53) = bias1 (argsOf m c).blin (argsOf m c).bself := by
  show StableHlo.after hostOps1 (W2 m ρ c) (Proc.devRef .tc main_v53) = _
  after_results_simp
  rw [W2_arg3 m ρ c, W2_arg5 m ρ c]
  rfl
set_option maxHeartbeats 8000000 in
theorem W3_v29 (c : Dev nD) : W3 m ρ c (Proc.devRef .tc main_v29) = feat1 (argsOf m c) := by
  show StableHlo.after hostOps1 (W2 m ρ c) (Proc.devRef .tc main_v29) = _
  after_results_simp
  exact W2_v29 m ρ c
set_option maxHeartbeats 8000000 in
theorem W3_arg1 (c : Dev nD) : W3 m ρ c (Proc.devRef .tc main_arg1) = (argsOf m c).ew := by
  show StableHlo.after hostOps1 (W2 m ρ c) (Proc.devRef .tc main_arg1) = _
  after_results_simp
  exact W2_arg1 m ρ c
set_option maxHeartbeats 8000000 in
theorem W3_arg6 (c : Dev nD) : W3 m ρ c (Proc.devRef .tc main_arg6) = (argsOf m c).nodeIn := by
  show StableHlo.after hostOps1 (W2 m ρ c) (Proc.devRef .tc main_arg6) = _
  after_results_simp
  exact W2_arg6 m ρ c
set_option maxHeartbeats 8000000 in
theorem W3_v4 (c : Dev nD) : W3 m ρ c (Proc.devRef .tc main_v4) = segIds (argsOf m c).nodeOut (argsOf m c).rel := by
  show StableHlo.after hostOps1 (W2 m ρ c) (Proc.devRef .tc main_v4) = _
  after_results_simp
  exact W2_v4 m ρ c
set_option maxHeartbeats 8000000 in
theorem W3_arg3 (c : Dev nD) : W3 m ρ c (Proc.devRef .tc main_arg3) = (argsOf m c).blin := by
  show StableHlo.after hostOps1 (W2 m ρ c) (Proc.devRef .tc main_arg3) = _
  after_results_simp
  exact W2_arg3 m ρ c
set_option maxHeartbeats 8000000 in
theorem W3_arg5 (c : Dev nD) : W3 m ρ c (Proc.devRef .tc main_arg5) = (argsOf m c).bself := by
  show StableHlo.after hostOps1 (W2 m ρ c) (Proc.devRef .tc main_arg5) = _
  after_results_simp
  exact W2_arg5 m ρ c
set_option maxHeartbeats 8000000 in
theorem W3_v0 (c : Dev nD) : W3 m ρ c (Proc.devRef .tc main_v0) = wlinCast (argsOf m c).wlin := by
  show StableHlo.after hostOps1 (W2 m ρ c) (Proc.devRef .tc main_v0) = _
  after_results_simp
  exact W2_v0 m ρ c
set_option maxHeartbeats 8000000 in
theorem W3_v1 (c : Dev nD) : W3 m ρ c (Proc.devRef .tc main_v1) = wselfCast (argsOf m c).wself := by
  show StableHlo.after hostOps1 (W2 m ρ c) (Proc.devRef .tc main_v1) = _
  after_results_simp
  exact W2_v1 m ρ c

/-! ## After region 1 -/

/-- Region 1 leaves the node features after layer 2. -/
theorem W4_v54 (c : Dev nD) : W4 m ρ c (Proc.devRef .tc main_v54) = feat2 (argsOf m c) := by
  refine (W4_arr m ρ c 5).trans ((Region1.final5 (V3 m ρ) c).trans ?_)
  show layer (W3 m ρ c (Proc.devRef .tc main_v43)) (W3 m ρ c (Proc.devRef .tc main_v50)) (W3 m ρ c (Proc.devRef .tc main_v29)) (W3 m ρ c (Proc.devRef .tc main_v52)) (W3 m ρ c (Proc.devRef .tc main_v53)) = _
  rw [W3_v43 m ρ c, W3_v50 m ρ c, W3_v29 m ρ c, W3_v52 m ρ c, W3_v53 m ρ c]
  rfl
theorem W4_arg1 (c : Dev nD) : W4 m ρ c (Proc.devRef .tc main_arg1) = (argsOf m c).ew :=
  (W4_of_ne m ρ c main_arg1 (by decide)).trans (W3_arg1 m ρ c)
theorem W4_arg6 (c : Dev nD) : W4 m ρ c (Proc.devRef .tc main_arg6) = (argsOf m c).nodeIn :=
  (W4_of_ne m ρ c main_arg6 (by decide)).trans (W3_arg6 m ρ c)
theorem W4_v4 (c : Dev nD) : W4 m ρ c (Proc.devRef .tc main_v4) = segIds (argsOf m c).nodeOut (argsOf m c).rel :=
  (W4_of_ne m ρ c main_v4 (by decide)).trans (W3_v4 m ρ c)
theorem W4_arg3 (c : Dev nD) : W4 m ρ c (Proc.devRef .tc main_arg3) = (argsOf m c).blin :=
  (W4_of_ne m ρ c main_arg3 (by decide)).trans (W3_arg3 m ρ c)
theorem W4_arg5 (c : Dev nD) : W4 m ρ c (Proc.devRef .tc main_arg5) = (argsOf m c).bself :=
  (W4_of_ne m ρ c main_arg5 (by decide)).trans (W3_arg5 m ρ c)
theorem W4_v0 (c : Dev nD) : W4 m ρ c (Proc.devRef .tc main_v0) = wlinCast (argsOf m c).wlin :=
  (W4_of_ne m ρ c main_v0 (by decide)).trans (W3_v0 m ρ c)
theorem W4_v1 (c : Dev nD) : W4 m ρ c (Proc.devRef .tc main_v1) = wselfCast (argsOf m c).wself :=
  (W4_of_ne m ρ c main_v1 (by decide)).trans (W3_v1 m ρ c)

/-! ## After the third host stretch (region 2's entry) -/

set_option maxHeartbeats 8000000 in
/-- The aggregated messages of the features after layer 2. -/
theorem W5_v68 (c : Dev nD) : W5 m ρ c (Proc.devRef .tc main_v68) = aggregate (feat2 (argsOf m c)) (argsOf m c).ew (argsOf m c).nodeIn (segIds (argsOf m c).nodeOut (argsOf m c).rel) := by
  show StableHlo.after hostOps2 (W4 m ρ c) (Proc.devRef .tc main_v68) = _
  after_results_simp
  rw [W4_v54 m ρ c, W4_arg1 m ρ c, W4_arg6 m ρ c, W4_v4 m ρ c]
  rfl
set_option maxHeartbeats 8000000 in
theorem W5_v75 (c : Dev nD) : W5 m ρ c (Proc.devRef .tc main_v75) = wl2 (wlinCast (argsOf m c).wlin) := by
  show StableHlo.after hostOps2 (W4 m ρ c) (Proc.devRef .tc main_v75) = _
  after_results_simp
  rw [W4_v0 m ρ c]
  rfl
set_option maxHeartbeats 8000000 in
theorem W5_v77 (c : Dev nD) : W5 m ρ c (Proc.devRef .tc main_v77) = ws2 (wselfCast (argsOf m c).wself) := by
  show StableHlo.after hostOps2 (W4 m ρ c) (Proc.devRef .tc main_v77) = _
  after_results_simp
  rw [W4_v1 m ρ c]
  rfl
set_option maxHeartbeats 8000000 in
theorem W5_v78 (c : Dev nD) : W5 m ρ c (Proc.devRef .tc main_v78) = bias2 (argsOf m c).blin (argsOf m c).bself := by
  show StableHlo.after hostOps2 (W4 m ρ c) (Proc.devRef .tc main_v78) = _
  after_results_simp
  rw [W4_arg3 m ρ c, W4_arg5 m ρ c]
  rfl
set_option maxHeartbeats 8000000 in
theorem W5_v54 (c : Dev nD) : W5 m ρ c (Proc.devRef .tc main_v54) = feat2 (argsOf m c) := by
  show StableHlo.after hostOps2 (W4 m ρ c) (Proc.devRef .tc main_v54) = _
  after_results_simp
  exact W4_v54 m ρ c

/-! ## After region 2 -/

/-- Region 2 leaves the node features after layer 3 … -/
theorem W6_v79_0 (c : Dev nD) : W6 m ρ c (Proc.devRef .tc main_v79_0) = feat3 (argsOf m c) := by
  refine (W6_arr m ρ c 5).trans ((Region2.final5 (V5 m ρ) c).trans ?_)
  show layer (W5 m ρ c (Proc.devRef .tc main_v68)) (W5 m ρ c (Proc.devRef .tc main_v75)) (W5 m ρ c (Proc.devRef .tc main_v54)) (W5 m ρ c (Proc.devRef .tc main_v77)) (W5 m ρ c (Proc.devRef .tc main_v78)) = _
  rw [W5_v68 m ρ c, W5_v75 m ρ c, W5_v54 m ρ c, W5_v77 m ρ c, W5_v78 m ρ c]
  rfl
/-- … and, in the second output, the per-block column sums of those features. -/
theorem W6_v79_1 (c : Dev nD) : W6 m ρ c (Proc.devRef .tc main_v79_1) = tileSums (feat3 (argsOf m c)) := by
  refine (W6_arr m ρ c 6).trans ((Region2.final6 (V5 m ρ) c).trans ?_)
  show tileSums (layer (W5 m ρ c (Proc.devRef .tc main_v68)) (W5 m ρ c (Proc.devRef .tc main_v75)) (W5 m ρ c (Proc.devRef .tc main_v54)) (W5 m ρ c (Proc.devRef .tc main_v77)) (W5 m ρ c (Proc.devRef .tc main_v78))) = _
  rw [W5_v68 m ρ c, W5_v75 m ρ c, W5_v54 m ρ c, W5_v77 m ρ c, W5_v78 m ρ c]
  rfl

/-! ## After the last host stretch: the results -/

set_option maxHeartbeats 8000000 in
/-- The readout: the 80 rows of per-block sums summed, divided by 8. -/
theorem W7_v82 (c : Dev nD) : W7 m ρ c (Proc.devRef .tc main_v82) = graphFeat (argsOf m c) := by
  show StableHlo.after hostOps3 (W6 m ρ c) (Proc.devRef .tc main_v82) = _
  after_results_simp
  rw [W6_v79_1 m ρ c]
  rfl
set_option maxHeartbeats 8000000 in
theorem W7_v79_0 (c : Dev nD) : W7 m ρ c (Proc.devRef .tc main_v79_0) = feat3 (argsOf m c) := by
  show StableHlo.after hostOps3 (W6 m ρ c) (Proc.devRef .tc main_v79_0) = _
  after_results_simp
  exact W6_v79_0 m ρ c

/-! ## The kernel's run, read -/

/-- Every weakly fair execution of the idealized kernel terminates without a fault, with the readout buffer at
    `graphFeat` and the node-feature buffer at `feat3` of the argument arrays as launched, and the arguments unchanged. -/
theorem kernel_value : θ_run defs (onTc (τ := τ) (main (F := Ideal))) ⟨m, fun _ => 0, ρ⟩ (fun r => ∀ c : Dev nD,
      r.2.mem ((c.tc : Thread nD τ).loc main_v82) = graphFeat (argsOf m c)
      ∧ r.2.mem ((c.tc : Thread nD τ).loc main_v79_0) = feat3 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W7_v82 m ρ c), (h c).2.1.trans (W7_v79_0 m ρ c), (h c).2.2⟩)
    (Cert.KernelIdeal.RunValue.run_results m ρ)

end Cert.KernelIdeal.Fold

end
-- ==== Proof.LibTileSum.lean ====
/-
  Regrouping a sum over a range cut into equal tiles, and the value of a running
  accumulator that adds the tiles one after another.

  Everything here holds in any additive commutative monoid; the extended reals are one,
  so no finiteness hypothesis is needed.
-/
import Mathlib.Algebra.BigOperators.Fin
import Idealize.ShloMosaic.PureOps.Ideal

namespace Cert.TileSum

open Finset

variable {M : Type*} [AddCommMonoid M]

/-- The position `t * j + r` of row `r` of tile `j` lies below `n * t`. -/
theorem tile_pos_lt {n t : ℕ} (j : Fin n) (r : Fin t) : t * j.val + r.val < n * t := by
  calc t * j.val + r.val < t * j.val + t := Nat.add_lt_add_left r.isLt _
    _ = t * (j.val + 1) := by rw [Nat.mul_succ]
    _ ≤ t * n := Nat.mul_le_mul_left _ j.isLt
    _ = n * t := Nat.mul_comm _ _

/-- A sum over `n * t` positions is the sum, over the `n` tiles, of the sums over the `t` rows of
each tile, row `r` of tile `j` being position `t * j + r`. -/
theorem sum_tiles_mul (n t : ℕ) (f : Fin (n * t) → M) :
    ∑ j : Fin n, ∑ r : Fin t, f ⟨t * j.val + r.val, tile_pos_lt j r⟩ = ∑ s : Fin (n * t), f s := by
  rw [← Fintype.sum_prod_type']
  refine Fintype.sum_equiv finProdFinEquiv _ _ ?_
  rintro ⟨j, r⟩
  refine congrArg f (Fin.ext ?_)
  simp only [finProdFinEquiv_apply_val]
  exact Nat.add_comm _ _

/-- The case of 8 tiles of 512 rows: a sum over 4096 positions, tile by tile. -/
theorem sum_tiles (f : Fin 4096 → M) :
    ∑ j : Fin 8, ∑ r : Fin 512, f ⟨512 * j.val + r.val, by omega⟩ = ∑ s : Fin 4096, f s :=
  sum_tiles_mul 8 512 f

/-- The same with a starting value in front, as an accumulator that starts from `z` sees it. -/
theorem add_sum_tiles (z : M) (f : Fin 4096 → M) :
    z + ∑ j : Fin 8, ∑ r : Fin 512, f ⟨512 * j.val + r.val, by omega⟩ = z + ∑ s : Fin 4096, f s := by
  rw [sum_tiles]

/-- The running accumulator over 8 tile sums `g`: it starts as `z + g 0` and step `n + 1` adds
`g (n + 1)` on the right of what step `n` left. -/
def accUpTo (z : M) (g : Fin 8 → M) : (n : ℕ) → n < 8 → M
  | 0, _ => z + g 0
  | n + 1, h => accUpTo z g n (by omega) + g ⟨n + 1, h⟩

/-- Eight terms added one after another to `z`, left to right, are `z` plus their sum. -/
theorem add_eight (z : M) (g : Fin 8 → M) :
    z + g 0 + g 1 + g 2 + g 3 + g 4 + g 5 + g 6 + g 7 = z + ∑ j : Fin 8, g j := by
  rw [Fin.sum_univ_eight]
  simp only [add_assoc]

/-- After the last step the accumulator holds `z` plus the sum of all 8 tile sums. -/
theorem accUpTo_last (z : M) (g : Fin 8 → M) :
    accUpTo z g 7 (by omega) = z + ∑ j : Fin 8, g j := by
  rw [← add_eight]
  rfl

/-- The accumulator over tile sums of 512 rows each ends as `z` plus the sum over all 4096
positions. -/
theorem accUpTo_tiles (z : M) (f : Fin 4096 → M) :
    accUpTo z (fun j : Fin 8 => ∑ r : Fin 512, f ⟨512 * j.val + r.val, by omega⟩) 7 (by omega)
      = z + ∑ s : Fin 4096, f s := by
  rw [accUpTo_last, sum_tiles]

end Cert.TileSum
-- ==== Proof.Readout.lean ====
/-
  The two laws of extended-real arithmetic that join the kernel to the reference.

  The extended reals are an additive commutative monoid, so a sum may be regrouped and reordered freely, and they
  are a commutative monoid under multiplication; what fails in general is distributivity, but multiplication by a
  finite non-negative constant does distribute over addition. Nothing here needs an entry to be finite.

  1. The bias. The kernel adds the two biases first and the two matrix products first,
     (a + b) + (bl + bs); the reference adds left to right, ((a + bl) + b) + bs. Equal by regrouping.
  2. The readout. The kernel sums each block of 1000 rows, writes every block sum 8 times, sums the 80 rows and
     divides by 8; the reference sums all 10000 rows. Eight copies of x sum to 8·x, the constant 8 moves out of the
     sum over blocks, 8·(1/8) = 1, and 10 blocks of 1000 rows are the 10000 rows.
-/
import Mathlib.Data.EReal.Operations
import Idealize.ShloMosaic.PureOps.Ideal
import proofs.«108785_j781684048169_2_alg».proof.Proof.LibTileSum

noncomputable section

namespace Cert.Readout

open Finset Idealize.ShloMosaic

/-- Adding the two biases first or one at a time gives the same entry. -/
theorem bias_regroup (a b bl bs : EReal) : (a + b) + (bl + bs) = ((a + bl) + b) + bs := by
  rw [add_add_add_comm, ← add_assoc]

/-- A finite non-negative constant moves out of a finite sum of extended reals. -/
theorem mul_sum_of_nonneg_of_ne_top {ι : Type*} (s : Finset ι) {c : EReal} (hc : 0 ≤ c) (hc' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- The float 8.0 is the real number 8. -/
theorem ofBits_eight : Ideal.ofBits .f32 0x41000000#32 = ((8 : ℝ) : EReal) := by
  simp [Ideal.ofBits, Ideal.ieee, -EReal.coe_mul]; norm_num

theorem eight_mul_eighth : ((8 : ℕ) : EReal) * ((1 / 8 : ℝ) : EReal) = 1 := by
  have h : ((8 : ℕ) : EReal) = ((8 : ℝ) : EReal) := by norm_cast
  rw [h, ← EReal.coe_mul]
  norm_num

theorem eight_nonneg : (0 : EReal) ≤ ((8 : ℕ) : EReal) := by
  have h : ((8 : ℕ) : EReal) = ((8 : ℝ) : EReal) := by norm_cast
  rw [h]
  exact EReal.coe_nonneg.mpr (by norm_num)

/-- Eight copies of each of `n` terms, summed and then multiplied by 1/8, are the `n` terms summed. -/
theorem sum_eight_copies_mul_eighth {n : ℕ} (g : Fin n → EReal) :
    (∑ t : Fin n, ∑ _s : Fin 8, g t) * ((1 / 8 : ℝ) : EReal) = ∑ t : Fin n, g t := by
  have h8 : ∀ x : EReal, ∑ _s : Fin 8, x = ((8 : ℕ) : EReal) * x := fun x => by
    rw [Finset.sum_const, Finset.card_univ, Fintype.card_fin, EReal.nsmul_eq_mul]
  simp only [h8]
  rw [← mul_sum_of_nonneg_of_ne_top _ eight_nonneg (EReal.natCast_ne_top 8), mul_comm ((8 : ℕ) : EReal), mul_assoc,
    eight_mul_eighth, mul_one]

/-- THE READOUT LAW. For a column `x` of 10000 entries: the sum over the 80 rows `k` of the sum of block `k / 8`,
    started from zero and divided by the float 8.0, is the sum of the whole column started from zero. -/
theorem readout_law (x : Fin 10000 → EReal) :
    Ideal.div (0 + ∑ k : Fin 80, ∑ r : Fin 1000, x ⟨1000 * (k.val / 8) + r.val, by have := k.isLt; have := r.isLt; omega⟩)
        (Ideal.ofBits .f32 0x41000000#32)
      = 0 + ∑ n : Fin 10000, x n := by
  rw [ofBits_eight, Ideal.div_coe (by norm_num : (8 : ℝ) ≠ 0), zero_add, zero_add]
  rw [← Cert.TileSum.sum_tiles_mul 10 8 (fun k : Fin 80 => ∑ r : Fin 1000, x ⟨1000 * (k.val / 8) + r.val, by have := k.isLt; have := r.isLt; omega⟩)]
  have hblk : ∀ (t : Fin 10) (s : Fin 8), (∑ r : Fin 1000, x ⟨1000 * ((8 * t.val + s.val) / 8) + r.val, by have := t.isLt; have := s.isLt; have := r.isLt; omega⟩)
      = ∑ r : Fin 1000, x ⟨1000 * t.val + r.val, by have := t.isLt; have := r.isLt; omega⟩ := fun t s =>
    Finset.sum_congr rfl fun r _ => congrArg x (Fin.ext (by
      show 1000 * ((8 * t.val + s.val) / 8) + r.val = 1000 * t.val + r.val
      have := s.isLt; omega))
  simp only [hblk]
  rw [sum_eight_copies_mul_eighth]
  exact Cert.TileSum.sum_tiles_mul 10 1000 x

end Cert.Readout

end
-- ==== Proof.RefBridge.lean ====
/-
  The reference, stage by stage, computes the same functions of the arguments as the kernel.

  Per layer the reference aggregates with the same host operations on the same operands, takes the same slices of the
  weight tensors (the kernel's extra change of float format is the identity on the extended reals), and evaluates
  max (((Σ U·Wl + bl) + Σ H·Ws) + bs, 0) where the kernel evaluates max ((Σ U·Wl + Σ H·Ws) + (bl + bs), 0): equal by
  regrouping the sum. Its readout is the sum of all 10000 rows; the kernel's is the sum of 80 rows of block sums
  divided by 8: equal by the readout law.
-/
import proofs.«108785_j781684048169_2_alg».proof.Proof.Gen.ReferenceIdeal.Read
import proofs.«108785_j781684048169_2_alg».proof.Proof.HostTerms
import proofs.«108785_j781684048169_2_alg».proof.Proof.Readout
import Idealize.ShloMosaic.Lib.Pipeline.Value
import Idealize.ShloMosaic.PureOps.Ideal.Laws

set_option maxRecDepth 16384

noncomputable section

namespace Cert.ReferenceIdeal.Bridge

open Cert.KernelIdeal Cert.KernelIdeal.Facts₀ Cert.KernelIdeal.Facts Cert.KernelIdeal.Layer Cert.KernelIdeal.HostTerms
open Cert.ReferenceIdeal.Read Idealize.ShloMosaic Idealize.ShloMosaic.TcCoe Idealize.SL.Sem

/-! ## Layer 1 -/

/-- Layer 0's bias row at column `i 1` is the reference's two broadcast bias rows at `i`, added. -/
theorem bias0_ref (bl bs : C S3x512 .f32) (i : S10000x512.Idx) :
    bias0 bl bs (aB i) = val_main_v23 (F := Ideal) bl i + val_main_v32 (F := Ideal) bs i := by
  rw [val_main_v23_apply, val_main_v22_apply, val_main_v32_apply, val_main_v31_apply]
  unfold bias0
  refine (shapeCast_addUnit_apply (n := 1) ![512] _ shapeCasts_S512_S1x512 (aB i)).trans ?_
  rfl

/-- The reference's node features after layer 1 are the kernel's, as functions of the arguments. -/
theorem ref_feat1 (A : Args) : val_main_v34 (F := Ideal) A.x A.ew A.wlin A.blin A.wself A.bself A.nodeIn A.nodeOut A.rel = feat1 A := by
  funext i
  have eagg : val_main_v16 (F := Ideal) A.x A.ew A.nodeIn A.nodeOut A.rel = aggregate A.x A.ew A.nodeIn (segIds A.nodeOut A.rel) := rfl
  have ewl : (val_main_v18 (F := Ideal) A.wlin : S3584x512.Idx → EReal) = wl0 (wlinCast A.wlin) := rfl
  have ews : (val_main_v26 (F := Ideal) A.wself : S512x512.Idx → EReal) = ws0 (wselfCast A.wself) := rfl
  have ez : val_main_call0_cst (F := Ideal) (idx_main_call0_v0 i) = 0 := Ideal.ofBits_zero_f32
  rw [val_main_v34_apply, val_main_v33_apply, val_main_v28_apply, val_main_v24_apply, val_main_v19_apply,
    val_main_v27_apply, val_main_call0_v0_apply, ez, eagg, ewl, ews]
  unfold feat1 step0 layer
  rw [bias0_ref, Cert.Readout.bias_regroup]
  rfl

/-! ## Layer 2 -/

/-- Layer 1's bias row at column `i 1` is the reference's two broadcast bias rows at `i`, added. -/
theorem bias1_ref (bl bs : C S3x512 .f32) (i : S10000x512.Idx) :
    bias1 bl bs (aB i) = val_main_v55 (F := Ideal) bl i + val_main_v64 (F := Ideal) bs i := by
  rw [val_main_v55_apply, val_main_v54_apply, val_main_v64_apply, val_main_v63_apply]
  unfold bias1
  refine (shapeCast_addUnit_apply (n := 1) ![512] _ shapeCasts_S512_S1x512 (aB i)).trans ?_
  rfl

/-- The reference's node features after layer 2 are the kernel's, as functions of the arguments. -/
theorem ref_feat2 (A : Args) : val_main_v66 (F := Ideal) A.x A.ew A.wlin A.blin A.wself A.bself A.nodeIn A.nodeOut A.rel = feat2 A := by
  funext i
  have eagg : val_main_v48 (F := Ideal) A.x A.ew A.wlin A.blin A.wself A.bself A.nodeIn A.nodeOut A.rel = aggregate (val_main_v34 (F := Ideal) A.x A.ew A.wlin A.blin A.wself A.bself A.nodeIn A.nodeOut A.rel) A.ew A.nodeIn (segIds A.nodeOut A.rel) := rfl
  have ewl : (val_main_v50 (F := Ideal) A.wlin : S3584x512.Idx → EReal) = wl1 (wlinCast A.wlin) := rfl
  have ews : (val_main_v58 (F := Ideal) A.wself : S512x512.Idx → EReal) = ws1 (wselfCast A.wself) := rfl
  have ez : val_main_call1_cst (F := Ideal) (idx_main_call1_v0 i) = 0 := Ideal.ofBits_zero_f32
  rw [val_main_v66_apply, val_main_v65_apply, val_main_v60_apply, val_main_v56_apply, val_main_v51_apply,
    val_main_v59_apply, val_main_call1_v0_apply, ez, eagg, ewl, ews, ref_feat1 A]
  unfold feat2 step1 layer
  rw [bias1_ref, Cert.Readout.bias_regroup]
  rfl

/-! ## Layer 3 -/

/-- Layer 2's bias row at column `i 1` is the reference's two broadcast bias rows at `i`, added. -/
theorem bias2_ref (bl bs : C S3x512 .f32) (i : S10000x512.Idx) :
    bias2 bl bs (aB i) = val_main_v87 (F := Ideal) bl i + val_main_v96 (F := Ideal) bs i := by
  rw [val_main_v87_apply, val_main_v86_apply, val_main_v96_apply, val_main_v95_apply]
  unfold bias2
  refine (shapeCast_addUnit_apply (n := 1) ![512] _ shapeCasts_S512_S1x512 (aB i)).trans ?_
  rfl

/-- The reference's node features after layer 3 are the kernel's, as functions of the arguments. -/
theorem ref_feat3 (A : Args) : val_main_v98 (F := Ideal) A.x A.ew A.wlin A.blin A.wself A.bself A.nodeIn A.nodeOut A.rel = feat3 A := by
  funext i
  have eagg : val_main_v80 (F := Ideal) A.x A.ew A.wlin A.blin A.wself A.bself A.nodeIn A.nodeOut A.rel = aggregate (val_main_v66 (F := Ideal) A.x A.ew A.wlin A.blin A.wself A.bself A.nodeIn A.nodeOut A.rel) A.ew A.nodeIn (segIds A.nodeOut A.rel) := rfl
  have ewl : (val_main_v82 (F := Ideal) A.wlin : S3584x512.Idx → EReal) = wl2 (wlinCast A.wlin) := rfl
  have ews : (val_main_v90 (F := Ideal) A.wself : S512x512.Idx → EReal) = ws2 (wselfCast A.wself) := rfl
  have ez : val_main_call2_cst (F := Ideal) (idx_main_call2_v0 i) = 0 := Ideal.ofBits_zero_f32
  rw [val_main_v98_apply, val_main_v97_apply, val_main_v92_apply, val_main_v88_apply, val_main_v83_apply,
    val_main_v91_apply, val_main_call2_v0_apply, ez, eagg, ewl, ews, ref_feat2 A]
  unfold feat3 step2 layer
  rw [bias2_ref, Cert.Readout.bias_regroup]
  rfl

/-! ## The readout -/

/-- The kernel's readout of the per-block column sums of `X`, at column `d`: zero plus the sum of that column of `X`
    over all 10000 rows. -/
theorem readout_apply (X : C S10000x512 .f32) (d : S512.Idx) :
    readout (tileSums X) d = 0 + ∑ n : Fin 10000, X (idx_main_v99 d n) := by
  unfold readout
  simp only [Host.divf, Host.reduceAdd, Ideal.hostDivf_def, Ideal.hostReduceAdd_def, broadcastInDim, constant, Ideal.ofBits_def]
  rw [Ideal.hostReduceAdd_single reducesTo_S80x512_S512_d0 (by decide), Ideal.ofBits_zero_f32]
  refine Eq.trans ?_ (Cert.Readout.readout_law (fun n => X (idx_main_v99 d n)))
  refine congrArg (Ideal.div · _) (congrArg (0 + ·) (Finset.sum_congr rfl fun k _ => ?_))
  unfold tileSums
  exact Finset.sum_congr rfl fun r _ => congrArg X (funext fun a => Fin.ext (by
    match a with
    | ⟨0, _⟩ => rfl
    | ⟨1, _⟩ => rfl))

/-- The reference's readout is the kernel's, as functions of the arguments. -/
theorem ref_graph (A : Args) : val_main_v99 (F := Ideal) A.x A.ew A.wlin A.blin A.wself A.bself A.nodeIn A.nodeOut A.rel = graphFeat A := by
  funext d
  have ez : val_main_cst_8 (F := Ideal) (Shape.Idx.first Cert.ReferenceIdeal.Facts₀.h_S_) = 0 := Ideal.ofBits_zero_f32
  rw [val_main_v99_apply, ref_feat3 A, ez]
  unfold graphFeat
  exact (readout_apply (feat3 A) d).symm

end Cert.ReferenceIdeal.Bridge

end
-- ==== Proof.lean ====
/-
  A three-layer relational graph layer stack: the Pallas kernel against its jnp reference, on the extended reals.

  Both programs run three layers. A layer aggregates messages on the host — edge e carries ew[e] · h[node_in[e]],
  summed into segment node_out[e]·7 + relation[e] — and then combines:
      h' = max (U·Wl + bl + h·Ws + bs, 0)
  with U the aggregated messages read as 10000 × 3584. The reference evaluates the combine step with two host matrix
  products and adds left to right; the kernel evaluates it in a TensorCore region, 1000 rows at a time, as
  (U·Wl + h·Ws) + (bl + bs) with the operands passed through a change of float format. The last region also emits,
  per block, 8 copies of the block's column sums, and the host sums those 80 rows and divides by 8, where the
  reference sums the 10000 rows of the last features.

  On the extended reals a change of float format is the identity, a matrix product into a zero accumulator is the plain
  sum of products, addition is commutative and associative, and multiplication by the finite non-negative 1/8
  distributes over a sum. So both programs compute the same two functions of the nine argument arrays
  (`HostTerms.graphFeat`, `HostTerms.feat3`), and no entry needs to be finite: the precondition is not used.

  The modules: `Combine` (one block of the combine step at an entry), `Layer` (the step on whole arrays),
  `Region0` … `Region2` (each region's output arrays after its grid), `KernelRun` (the kernel's run with its results
  named), `HostTerms` and `Fold` (every buffer along @main as a function of the arguments), `Readout` (the two laws
  of arithmetic), `RefBridge` (the reference's stages are the same functions).
-/
import proofs.«108785_j781684048169_2_alg».proof.Defs
import proofs.«108785_j781684048169_2_alg».proof.Proof.Gen.Kernel
import proofs.«108785_j781684048169_2_alg».proof.Proof.Gen.Kernel.Skeleton
import proofs.«108785_j781684048169_2_alg».proof.Proof.Gen.Kernel.Launch
import proofs.«108785_j781684048169_2_alg».proof.Proof.Gen.Kernel.Points
import proofs.«108785_j781684048169_2_alg».proof.Proof.Gen.Kernel.Frame
import proofs.«108785_j781684048169_2_alg».proof.Proof.Gen.KernelIdeal
import proofs.«108785_j781684048169_2_alg».proof.Proof.Gen.KernelIdeal.Skeleton
import proofs.«108785_j781684048169_2_alg».proof.Proof.Gen.KernelIdeal.Launch
import proofs.«108785_j781684048169_2_alg».proof.Proof.Gen.KernelIdeal.Points
import proofs.«108785_j781684048169_2_alg».proof.Proof.Gen.KernelIdeal.Frame
import proofs.«108785_j781684048169_2_alg».proof.Proof.Gen.ReferenceIdeal
import proofs.«108785_j781684048169_2_alg».proof.Proof.Gen.Pre_finite_inputs
import proofs.«108785_j781684048169_2_alg».proof.Proof.Gen.ReferenceIdeal.Run
import proofs.«108785_j781684048169_2_alg».proof.Proof.Gen.ReferenceIdeal.Read
import proofs.«108785_j781684048169_2_alg».proof.Proof.Fold
import proofs.«108785_j781684048169_2_alg».proof.Proof.RefBridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the idealized kernel ends with its readout and node features at
    `graphFeat` and `feat3` of the arguments, and the idealized reference ends with its two results at stages that are
    the same two functions of the same arguments. -/
theorem algebraic : Cert.algebraic_KernelIdeal_ReferenceIdeal := by
  intro m ρ m' ρ' _ hagree
  refine ⟨fun c => Cert.KernelIdeal.HostTerms.graphFeat (Cert.KernelIdeal.Fold.argsOf m c),
    fun c => Cert.KernelIdeal.HostTerms.feat3 (Cert.KernelIdeal.Fold.argsOf m c),
    Cert.KernelIdeal.Fold.kernel_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v99_eq, h0, h1, h2, h3, h4, h5, h6, h7, h8]
    exact Cert.ReferenceIdeal.Bridge.ref_graph (Cert.KernelIdeal.Fold.argsOf m c)
  · obtain ⟨h0, h1, h2, h3, h4, h5, h6, h7, h8⟩ := hagree c
    rw [Cert.ReferenceIdeal.Read.val_main_v98_eq, h0, h1, h2, h3, h4, h5, h6, h7, h8]
    exact Cert.ReferenceIdeal.Bridge.ref_feat3 (Cert.KernelIdeal.Fold.argsOf m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
